-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v65) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S2x3200000 : Shape := ⟨2, ![2, 3200000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x16 : S_.BroadcastsInDim S512x16 (![] : Fin 0 → Fin S512x16.rank)
  reducesTo_S512x16_S_d0_1 : S512x16.ReducesTo [0, 1] S_
  bcast_S_S16 : S_.BroadcastsInDim S16 (![] : Fin 0 → Fin S16.rank)
  reducesTo_S16_S_d0 : S16.ReducesTo [0] S_
  bcast_S_S16x40 : S_.BroadcastsInDim S16x40 (![] : Fin 0 → Fin S16x40.rank)
  reducesTo_S16x40_S_d0_1 : S16x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg4 : FVec F S40 .f32) (main_v13 : IVec S_ 1) (main_v16 : IVec S16x40 1) : IVec S_ 1 :=
  let main_c_5 : IVec S_ 1 := constantI S_ 1 1#1
  let main_v17 : IVec S_ 1 := (fun x v => Host.reduce IntOp.andi x v reducesTo_S16x40_S_d0_1 h_S_) main_v16 main_c_5
  let main_v18 : IVec S_ 1 := andi main_v13 main_v17
  let main_v19 : FVec F S40 .f32 := Host.absf main_arg4
  let main_cst_6 : FVec F S_ .f32 := constant S_ .f32 0x7F800000#32
  let main_v20 : FVec F S40 .f32 := broadcastInDim S40 ![] bcast_S_S40 main_cst_6
  let main_v21 : IVec S40 1 := cmpf .olt main_v19 main_v20
  let main_c_7 : IVec S_ 1 := constantI S_ 1 1#1
  let main_v22 : IVec S_ 1 := (fun x v => Host.reduce IntOp.andi x v reducesTo_S40_S_d0 h_S_) main_v21 main_c_7
  let main_v23 : IVec S_ 1 := andi main_v18 main_v22
  main_v23

def fn {F : FTy → Type} [FloatOps F] (main_arg0 : FVec F S100000x512 .f32) (main_arg1 : FVec F S512x16 .f32) (main_arg2 : FVec F S16 .f32) (main_arg3 : FVec F S16x40 .f32) (main_arg4 : FVec F S40 .f32) (main_arg5 : IVec S2x3200000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x16 .f32 := Host.absf main_arg1
  let main_cst_0 : FVec F S_ .f32 := constant S_ .f32 0x7F800000#32
  let main_v5 : FVec F S512x16 .f32 := broadcastInDim S512x16 ![] bcast_S_S512x16 main_cst_0
  let main_v6 : IVec S512x16 1 := cmpf .olt main_v4 main_v5
  let main_c_1 : IVec S_ 1 := constantI S_ 1 1#1
  let main_v7 : IVec S_ 1 := (fun x v => Host.reduce IntOp.andi x v reducesTo_S512x16_S_d0_1 h_S_) main_v6 main_c_1
  let main_v8 : IVec S_ 1 := andi main_v3 main_v7
  let main_v9 : FVec F S16 .f32 := Host.absf main_arg2
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x40 .f32 := Host.absf main_arg3
  let main_cst_4 : FVec F S_ .f32 := constant S_ .f32 0x7F800000#32
  let main_v15 : FVec F S16x40 .f32 := broadcastInDim S16x40 ![] bcast_S_S16x40 main_cst_4
  let main_v16 : IVec S16x40 1 := cmpf .olt main_v14 main_v15
  fn_part1 (F := F) main_arg4 main_v13 main_v16
-- ==== Kernel.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x512 : Shape := ⟨2, ![5000, 512]⟩
abbrev S5000x16 : Shape := ⟨2, ![5000, 16]⟩
abbrev S3300000x16 : Shape := ⟨2, ![3300000, 16]⟩
abbrev S1x16 : Shape := ⟨2, ![1, 16]⟩
abbrev S100000x40 : Shape := ⟨2, ![100000, 40]⟩
abbrev S5000x40 : Shape := ⟨2, ![5000, 40]⟩
abbrev S3300000x40 : Shape := ⟨2, ![3300000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 83
  | .vmem => 16
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x40, .f32⟩
  | .hbm, ⟨4, _⟩ => ⟨S40, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S3300000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x40, .f32⟩
  | .hbm, ⟨65, _⟩ => ⟨S3300000x1, .f32⟩
  | .hbm, ⟨66, _⟩ => ⟨S_, .i32⟩
  | .hbm, ⟨67, _⟩ => ⟨S3300000, .i32⟩
  | .hbm, ⟨68, _⟩ => ⟨S3300000, .i1⟩
  | .hbm, ⟨69, _⟩ => ⟨S_, .i32⟩
  | .hbm, ⟨70, _⟩ => ⟨S3300000, .i32⟩
  | .hbm, ⟨71, _⟩ => ⟨S3300000, .i32⟩
  | .hbm, ⟨72, _⟩ => ⟨S3300000, .i32⟩
  | .hbm, ⟨73, _⟩ => ⟨S3300000x1, .i32⟩
  | .hbm, ⟨74, _⟩ => ⟨S3300000x40, .f32⟩
  | .hbm, ⟨75, _⟩ => ⟨S3300000x40, .f32⟩
  | .hbm, ⟨76, _⟩ => ⟨S3300000x40, .f32⟩
  | .hbm, ⟨77, _⟩ => ⟨S_, .f32⟩
  | .hbm, ⟨78, _⟩ => ⟨S100000x40, .f32⟩
  | .hbm, ⟨79, _⟩ => ⟨S3300000x1, .i32⟩
  | .hbm, ⟨80, _⟩ => ⟨S100000x40, .f32⟩
  | .hbm, ⟨81, _⟩ => ⟨S1x40, .f32⟩
  | .hbm, ⟨82, _⟩ => ⟨S100000x40, .f32⟩
  | .local _ .vmem, ⟨0, _⟩ => ⟨S5000x512, .f32⟩
  | .local _ .vmem, ⟨1, _⟩ => ⟨S5000x512, .f32⟩
  | .local _ .vmem, ⟨2, _⟩ => ⟨S512x16, .f32⟩
  | .local _ .vmem, ⟨3, _⟩ => ⟨S5000x16, .f32⟩
  | .local _ .vmem, ⟨4, _⟩ => ⟨S5000x16, .f32⟩
  | .local _ .vmem, ⟨5, _⟩ => ⟨S5000x16, .f32⟩
  | .local _ .vmem, ⟨6, _⟩ => ⟨S5000x16, .f32⟩
  | .local _ .vmem, ⟨7, _⟩ => ⟨S1x16, .f32⟩
  | .local _ .vmem, ⟨8, _⟩ => ⟨S16x40, .f32⟩
  | .local _ .vmem, ⟨9, _⟩ => ⟨S5000x40, .f32⟩
  | .local _ .vmem, ⟨10, _⟩ => ⟨S5000x40, .f32⟩
  | .local _ .vmem, ⟨11, _⟩ => ⟨S5000x40, .f32⟩
  | .local _ .vmem, ⟨12, _⟩ => ⟨S5000x40, .f32⟩
  | .local _ .vmem, ⟨13, _⟩ => ⟨S1x40, .f32⟩
  | .local _ .vmem, ⟨14, _⟩ => ⟨S5000x40, .f32⟩
  | .local _ .vmem, ⟨15, _⟩ => ⟨S5000x40, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_9 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_11 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg3_0 : Ref sig .tc := ⟨.vmem, 9, rfl⟩
abbrev cc1_stg3_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem3_0 : DmaSem sig := 9
abbrev cc1_sem3_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x16 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S16x40 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S5000x40 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x40 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x40 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x40 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x512_S5000x512_0_0 : ∀ a, (![0, 0] : Fin 2 → Nat) a + S5000x512.size a ≤ S5000x512.size a
  h_S5000x512 : 0 < S5000x512.numel
  bitsLt_bf16_f32 : FTy.bits .bf16 < FTy.bits .f32
  inb_S512x16_S512x16_0_0 : ∀ a, (![0, 0] : Fin 2 → Nat) a + S512x16.size a ≤ S512x16.size a
  h_S512x16 : 0 < S512x16.numel
  inb_S5000x16_S5000x16_0_0 : ∀ a, (![0, 0] : Fin 2 → Nat) a + S5000x16.size a ≤ S5000x16.size a
  h_S5000x16 : 0 < S5000x16.numel
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x40_S16x40_0_0 : ∀ a, (![0, 0] : Fin 2 → Nat) a + S16x40.size a ≤ S16x40.size a
  h_S16x40 : 0 < S16x40.numel
  inb_S5000x40_S5000x40_0_0 : ∀ a, (![0, 0] : Fin 2 → Nat) a + S5000x40.size a ≤ S5000x40.size a
  h_S5000x40 : 0 < S5000x40.numel
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x512_S512x16_S5000x16_1_0_0_1_n_n_wf : DotDims.WF S5000x512 S512x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x40_S5000x40_1_0_0_1_n_n_wf : DotDims.WF S5000x16 S16x40 S5000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x512.size a ≤ S100000x512.size a
  hwx0_0 : ∀ i : grid0.Coords, EltTy.bits .f32 = 32 ∨ (Rect.block (s := S100000x512) S5000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x16.size a ≤ S512x16.size a
  hwx0_1 : ∀ i : grid0.Coords, EltTy.bits .f32 = 32 ∨ (Rect.block (s := S512x16) S512x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x16.size a ≤ S100000x16.size a
  hwx1_0 : ∀ i : grid1.Coords, EltTy.bits .f32 = 32 ∨ (Rect.block (s := S100000x16) S5000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x16.size a ≤ S1x16.size a
  hwx1_1 : ∀ i : grid1.Coords, EltTy.bits .f32 = 32 ∨ (Rect.block (s := S1x16) S1x16.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S16x40.size a ≤ S16x40.size a
  hwx1_2 : ∀ i : grid1.Coords, EltTy.bits .f32 = 32 ∨ (Rect.block (s := S16x40) S16x40.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x40.size a ≤ S100000x40.size a
  hwx1_3 : ∀ i : grid1.Coords, EltTy.bits .f32 = 32 ∨ (Rect.block (s := S100000x40) S5000x40.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x40.size a ≤ S100000x40.size a
  hwx2_0 : ∀ i : grid2.Coords, EltTy.bits .f32 = 32 ∨ (Rect.block (s := S100000x40) S5000x40.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x40.size a ≤ S1x40.size a
  hwx2_1 : ∀ i : grid2.Coords, EltTy.bits .f32 = 32 ∨ (Rect.block (s := S1x40) S1x40.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x40.size a ≤ S100000x40.size a
  hwx2_2 : ∀ i : grid2.Coords, EltTy.bits .f32 = 32 ∨ (Rect.block (s := S100000x40) S5000x40.size (cc2_transform_2 i) (hinb2_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x512_S512x16_S5000x16_1_0_0_1_n_n : DotDims S5000x512 S512x16 S5000x16 where
  lhsContracting := [1]
  rhsContracting := [0]
  lhsNonContracting := [0]
  rhsNonContracting := [1]
  lhsBatch := []
  rhsBatch := []
  wf := dot_S5000x512_S512x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x40_S5000x40_1_0_0_1_n_n : DotDims S5000x16 S16x40 S5000x40 where
  lhsContracting := [1]
  rhsContracting := [0]
  lhsNonContracting := [0]
  rhsNonContracting := [1]
  lhsBatch := []
  rhsBatch := []
  wf := dot_S5000x16_S16x40_S5000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

abbrev win0_0 : Pipeline.Window sig grid0 :=
  Pipeline.Window.ofSpec (Memref.whole main_arg0) S5000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S16x40.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v45) S5000x40.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S5000x40.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x40.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v60) S5000x40.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S100000x512 : Shape := ⟨2, ![100000, 512]⟩
abbrev S512x16 : Shape := ⟨2, ![512, 16]⟩
abbrev S16 : Shape := ⟨1, ![16]⟩
abbrev S16x40 : Shape := ⟨2, ![16, 40]⟩
abbrev S40 : Shape := ⟨1, ![40]⟩
abbrev S2x3200000 : Shape := ⟨2, ![2, 3200000]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x40 : Shape := ⟨2, ![100000, 40]⟩
abbrev S3300000x40 : Shape := ⟨2, ![3300000, 40]⟩
abbrev S1x40 : Shape := ⟨2, ![1, 40]⟩
abbrev S100000x1 : Shape := ⟨2, ![100000, 1]⟩

abbrev nBuf : Space → Nat
  | .hbm => 104
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x16, .f32⟩
  | .hbm, ⟨2, _⟩ => ⟨S16, .f32⟩
  | .hbm, ⟨3, _⟩ => ⟨S16x40, .f32⟩
  | .hbm, ⟨4, _⟩ => ⟨S40, .f32⟩
  | .hbm, ⟨5, _⟩ => ⟨S2x3200000, .i32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S3300000, .i32⟩
  | .hbm, ⟨29, _⟩ => ⟨S3300000, .i1⟩
  | .hbm, ⟨30, _⟩ => ⟨S_, .i32⟩
  | .hbm, ⟨31, _⟩ => ⟨S3300000, .i32⟩
  | .hbm, ⟨32, _⟩ => ⟨S3300000, .i32⟩
  | .hbm, ⟨33, _⟩ => ⟨S3300000, .i32⟩
  | .hbm, ⟨34, _⟩ => ⟨S3300000x1, .i32⟩
  | .hbm, ⟨35, _⟩ => ⟨S3300000, .f32⟩
  | .hbm, ⟨36, _⟩ => ⟨S_, .i32⟩
  | .hbm, ⟨37, _⟩ => ⟨S3300000, .i32⟩
  | .hbm, ⟨38, _⟩ => ⟨S3300000, .i1⟩
  | .hbm, ⟨39, _⟩ => ⟨S_, .i32⟩
  | .hbm, ⟨40, _⟩ => ⟨S3300000, .i32⟩
  | .hbm, ⟨41, _⟩ => ⟨S3300000, .i32⟩
  | .hbm, ⟨42, _⟩ => ⟨S3300000, .i32⟩
  | .hbm, ⟨43, _⟩ => ⟨S3300000x1, .i32⟩
  | .hbm, ⟨44, _⟩ => ⟨S3300000, .f32⟩
  | .hbm, ⟨45, _⟩ => ⟨S3300000, .f32⟩
  | .hbm, ⟨46, _⟩ => ⟨S100000x16, .f32⟩
  | .hbm, ⟨47, _⟩ => ⟨S3300000x1, .f32⟩
  | .hbm, ⟨48, _⟩ => ⟨S_, .i32⟩
  | .hbm, ⟨49, _⟩ => ⟨S3300000, .i32⟩
  | .hbm, ⟨50, _⟩ => ⟨S3300000, .i1⟩
  | .hbm, ⟨51, _⟩ => ⟨S_, .i32⟩
  | .hbm, ⟨52, _⟩ => ⟨S3300000, .i32⟩
  | .hbm, ⟨53, _⟩ => ⟨S3300000, .i32⟩
  | .hbm, ⟨54, _⟩ => ⟨S3300000, .i32⟩
  | .hbm, ⟨55, _⟩ => ⟨S3300000x1, .i32⟩
  | .hbm, ⟨56, _⟩ => ⟨S3300000x16, .f32⟩
  | .hbm, ⟨57, _⟩ => ⟨S3300000x16, .f32⟩
  | .hbm, ⟨58, _⟩ => ⟨S3300000x16, .f32⟩
  | .hbm, ⟨59, _⟩ => ⟨S_, .f32⟩
  | .hbm, ⟨60, _⟩ => ⟨S100000x16, .f32⟩
  | .hbm, ⟨61, _⟩ => ⟨S3300000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x40, .f32⟩
  | .hbm, ⟨70, _⟩ => ⟨S3300000x1, .f32⟩
  | .hbm, ⟨71, _⟩ => ⟨S_, .i32⟩
  | .hbm, ⟨72, _⟩ => ⟨S3300000, .i32⟩
  | .hbm, ⟨73, _⟩ => ⟨S3300000, .i1⟩
  | .hbm, ⟨74, _⟩ => ⟨S_, .i32⟩
  | .hbm, ⟨75, _⟩ => ⟨S3300000, .i32⟩
  | .hbm, ⟨76, _⟩ => ⟨S3300000, .i32⟩
  | .hbm, ⟨77, _⟩ => ⟨S3300000, .i32⟩
  | .hbm, ⟨78, _⟩ => ⟨S3300000x1, .i32⟩
  | .hbm, ⟨79, _⟩ => ⟨S3300000x40, .f32⟩
  | .hbm, ⟨80, _⟩ => ⟨S3300000x40, .f32⟩
  | .hbm, ⟨81, _⟩ => ⟨S3300000x40, .f32⟩
  | .hbm, ⟨82, _⟩ => ⟨S_, .f32⟩
  | .hbm, ⟨83, _⟩ => ⟨S100000x40, .f32⟩
  | .hbm, ⟨84, _⟩ => ⟨S3300000x1, .i32⟩
  | .hbm, ⟨85, _⟩ => ⟨S100000x40, .f32⟩
  | .hbm, ⟨86, _⟩ => ⟨S1x40, .f32⟩
  | .hbm, ⟨87, _⟩ => ⟨S100000x40, .f32⟩
  | .hbm, ⟨88, _⟩ => ⟨S100000x40, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x40, .f32⟩
  | .hbm, ⟨96, _⟩ => ⟨S100000x40, .f32⟩
  | .hbm, ⟨97, _⟩ => ⟨S100000x40, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x40, .f32⟩
  | .hbm, ⟨103, _⟩ => ⟨S100000x40, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_6 : Ref sig .tc := ⟨.hbm, 48, rfl⟩
abbrev main_v32 : Ref sig .tc := ⟨.hbm, 49, rfl⟩
abbrev main_v33 : Ref sig .tc := ⟨.hbm, 50, rfl⟩
abbrev main_c_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_c_9 : Ref sig .tc := ⟨.hbm, 71, rfl⟩
abbrev main_v50 : Ref sig .tc := ⟨.hbm, 72, rfl⟩
abbrev main_v51 : Ref sig .tc := ⟨.hbm, 73, rfl⟩
abbrev main_c_10 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x40_0_1 : S3300000x1.BroadcastsInDim S3300000x40 (![0, 1] : Fin 2 → Fin S3300000x40.rank)
  bcast_S_S100000x40 : S_.BroadcastsInDim S100000x40 (![] : Fin 0 → Fin S100000x40.rank)
  bcast_S40_S1x40_1 : S40.BroadcastsInDim S1x40 (![1] : Fin 1 → Fin S1x40.rank)
  bcast_S1x40_S100000x40_0_1 : S1x40.BroadcastsInDim S100000x40 (![0, 1] : Fin 2 → Fin S100000x40.rank)
  reducesTo_S100000x40_S100000_d1 : S100000x40.ReducesTo [1] S100000
  h_S_ : 0 < S_.numel
  bcast_S100000_S100000x1_0 : S100000.BroadcastsInDim S100000x1 (![0] : Fin 1 → Fin S100000x1.rank)
  bcast_S100000x1_S100000x40_0_1 : S100000x1.BroadcastsInDim S100000x40 (![0, 1] : Fin 2 → Fin S100000x40.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x512_S512x16_S100000x16_1_0_0_1_n_n_wf : DotDims.WF S100000x512 S512x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x40_S100000x40_1_0_0_1_n_n_wf : DotDims.WF S100000x16 S16x40 S100000x40 [1] [0] [0] [1] [] []
  gather_S100000x40_S3300000x1_S3300000x40_1_0_n_n_0_1_140_wf : GatherDims.WF S100000x40 S3300000x1 S3300000x40 [1] [0] [] [0] [] 1 ![1, 40]
  scatter_S100000x40_S3300000x1_S3300000x40_1_0_0_1_wf : ScatterDims.WF S100000x40 S3300000x1 S3300000x40 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x512_S512x16_S100000x16_1_0_0_1_n_n : DotDims S100000x512 S512x16 S100000x16 where
  lhsContracting := [1]
  rhsContracting := [0]
  lhsNonContracting := [0]
  rhsNonContracting := [1]
  lhsBatch := []
  rhsBatch := []
  wf := dot_S100000x512_S512x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x40_S100000x40_1_0_0_1_n_n : DotDims S100000x16 S16x40 S100000x40 where
  lhsContracting := [1]
  rhsContracting := [0]
  lhsNonContracting := [0]
  rhsNonContracting := [1]
  lhsBatch := []
  rhsBatch := []
  wf := dot_S100000x16_S16x40_S100000x40_1_0_0_1_n_n_wf
def gather_S100000x40_S3300000x1_S3300000x40_1_0_n_n_0_1_140 : GatherDims S100000x40 S3300000x1 S3300000x40 where
  offsetDims := [1]
  collapsedSliceDims := [0]
  operandBatchingDims := []
  startIndicesBatchingDims := []
  startIndexMap := [0]
  indexVectorDim := 1
  sliceSizes := ![1, 40]
  wf := gather_S100000x40_S3300000x1_S3300000x40_1_0_n_n_0_1_140_wf
def scatter_S100000x40_S3300000x1_S3300000x40_1_0_0_1 : ScatterDims S100000x40 S3300000x1 S3300000x40 where
  updateWindowDims := [1]
  insertedWindowDims := [0]
  scatterDimsToOperandDims := [0]
  indexVectorDim := 1
  wf := scatter_S100000x40_S3300000x1_S3300000x40_1_0_0_1_wf

class Facts : Prop extends Facts₀ where

variable [Facts]
-- ==== Proof.KernelRun.lean ====
/-
  The idealized kernel's run with its result named. The program is eight segments — three stretches of host operations, the
  first projection, a stretch, the second layer, a stretch, the log-softmax — and the contents of the device's buffers at each
  boundary are a fold through them from the launch memory. Every weakly fair execution terminates, and at the end every
  unscoped buffer holds the last boundary's contents: in particular the result buffer does, and each argument buffer holds
  what it was launched with.
-/
import proofs.«181830_j893353198188_1_alg».proof.Proof.Gen.KernelIdeal.Frame

set_option maxRecDepth 16384

noncomputable section

namespace Cert.KernelIdeal.Bridge

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with every unscoped buffer at the last boundary's contents. -/
theorem run_boundary : θ_run defs (onTc (τ := τ) (main (F := F))) ⟨m, fun _ => 0, ρ⟩ (fun r => ∀ c : Dev nD,
      ∀ b ∈ Pipeline.ucRefs τ sig, r.2.mem (((c : Thread nD τ)).1, b) = W8 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h => h)

/-- The result buffer ends at the last boundary's contents of it, and the six arguments as launched. -/
theorem run_result : θ_run defs (onTc (τ := τ) (main (F := F))) ⟨m, fun _ => 0, ρ⟩ (fun r => ∀ c : Dev nD,
      r.2.mem ((c.tc : Thread nD τ).loc main_v60) = W8 m ρ c (Proc.devRef .tc main_v60)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c =>
      ⟨h c _ (mem_uc main_v60 (by decide)),
       (h c _ (mem_uc main_arg0 (by decide))).trans (W8_main_arg0 m ρ c),
       (h c _ (mem_uc main_arg1 (by decide))).trans (W8_main_arg1 m ρ c),
       (h c _ (mem_uc main_arg2 (by decide))).trans (W8_main_arg2 m ρ c),
       (h c _ (mem_uc main_arg3 (by decide))).trans (W8_main_arg3 m ρ c),
       (h c _ (mem_uc main_arg4 (by decide))).trans (W8_main_arg4 m ρ c),
       (h c _ (mem_uc main_arg5 (by decide))).trans (W8_main_arg5 m ρ c)⟩)
    (run_boundary m ρ)

end Cert.KernelIdeal.Bridge

end
-- ==== Proof.KernelStages.lean ====
/-
  The host operations of the idealized kernel, one stretch at a time, over ANY contents `V` of the device's buffers. Each
  lemma says: if the buffers a stretch reads hold the reference's stage values (the generated stage functions `val_main_…` of
  the arguments), then a buffer it writes holds the next stage value. The two programs apply the same operations to the
  edge list — source and target lists with self loops, the degree by a scatter-add of ones, its inverse square root where
  positive, the per-edge coefficient, and per layer a gather of source rows, the scaling and a scatter-add to target rows — so
  every such lemma is the stretch's operations composed, against the stage's definition unfolded. The last lemmas say which
  buffers a stretch leaves as they were.
-/
import proofs.«181830_j893353198188_1_alg».proof.Proof.Gen.KernelIdeal.Frame
import proofs.«181830_j893353198188_1_alg».proof.Proof.RefRead
import Idealize.ShloMosaic.Lib.StableHlo.Run
import Idealize.ShloMosaic.Lib.ValueLayout

set_option maxRecDepth 16384

noncomputable section

namespace Cert.KernelIdeal.Bridge

open Cert.KernelIdeal Cert.KernelIdeal.Gen
open Idealize.ShloMosaic Idealize.ShloMosaic.TcCoe Idealize.ShloMosaic.StableHlo Idealize.ShloMosaic.ValueIdx Idealize.SL.Sem
open Cert.ReferenceIdeal.ReadP

variable (V : Valuation τ sig (Elt Ideal))

/-! ## The first stretch: the edge lists, the degree, its comparison with zero and its inverse square root -/

theorem edge_sources (x5 : (⟨S2x3200000, .i32⟩ : BufTy).Contents (Elt Ideal)) (h5 : V (Proc.devRef .tc main_arg5) = x5) :
    after hostOps0 V (Proc.devRef .tc main_v3) = val_main_v3 (F := Ideal) x5 := by
  dsimp only [hostOps0]
  after_results
  rw [h5]
  rfl

theorem edge_targets (x5 : (⟨S2x3200000, .i32⟩ : BufTy).Contents (Elt Ideal)) (h5 : V (Proc.devRef .tc main_arg5) = x5) :
    after hostOps0 V (Proc.devRef .tc main_v6) = val_main_v6 (F := Ideal) x5 := by
  dsimp only [hostOps0]
  after_results
  rw [h5]
  rfl

theorem degree_positive (x5 : (⟨S2x3200000, .i32⟩ : BufTy).Contents (Elt Ideal)) (h5 : V (Proc.devRef .tc main_arg5) = x5) :
    after hostOps0 V (Proc.devRef .tc main_v12) = val_main_v12 (F := Ideal) x5 := by
  dsimp only [hostOps0]
  after_results
  rw [h5]
  rfl

theorem degree_rsqrt (x5 : (⟨S2x3200000, .i32⟩ : BufTy).Contents (Elt Ideal)) (h5 : V (Proc.devRef .tc main_arg5) = x5) :
    after hostOps0 V (Proc.devRef .tc main_v13) = val_main_v13 (F := Ideal) x5 := by
  dsimp only [hostOps0]
  after_results
  rw [h5]
  rfl

theorem zero_scalar :
    after (hostOps0 (F := Ideal)) V (Proc.devRef .tc main_cst_2) = val_main_cst_2 (F := Ideal) := by
  dsimp only [hostOps0]
  after_results
  rfl

/-! ## The second stretch: the inverse square root where the degree is positive, zero elsewhere -/

theorem degree_scale (x5 : (⟨S2x3200000, .i32⟩ : BufTy).Contents (Elt Ideal))
    (h12 : V (Proc.devRef .tc main_v12) = val_main_v12 (F := Ideal) x5)
    (h13 : V (Proc.devRef .tc main_v13) = val_main_v13 (F := Ideal) x5)
    (hc : V (Proc.devRef .tc main_cst_2) = val_main_cst_2 (F := Ideal)) :
    after hostOps0_1 V (Proc.devRef .tc main_v14) = val_main_v14 (F := Ideal) x5 := by
  dsimp only [hostOps0_1]
  after_results
  unfold val_main_v14 val_main_call0_v1 val_main_call0_v0
  rw [← h12, ← h13, ← hc]
  rfl

/-! ## The third stretch: the per-edge coefficient, the scale at the source times the scale at the target -/

theorem edge_coefficient (x5 : (⟨S2x3200000, .i32⟩ : BufTy).Contents (Elt Ideal))
    (h14 : V (Proc.devRef .tc main_v14) = val_main_v14 (F := Ideal) x5)
    (h3 : V (Proc.devRef .tc main_v3) = val_main_v3 (F := Ideal) x5)
    (h6 : V (Proc.devRef .tc main_v6) = val_main_v6 (F := Ideal) x5) :
    after hostOps0_2 V (Proc.devRef .tc main_v29) = val_main_v29 (F := Ideal) x5 := by
  dsimp only [hostOps0_2]
  after_results_simp
  unfold val_main_v29 val_main_v28 val_main_v27 val_main_v26 val_main_v25 val_main_v24 val_main_c_5 val_main_v23 val_main_v22 val_main_c_4 val_main_v21 val_main_v20 val_main_v19 val_main_v18 val_main_v17 val_main_c_3 val_main_v16 val_main_v15 val_main_c
  rw [← h14, ← h3, ← h6]
  rfl

/-! ## The stretch after the first projection: the first aggregate, and the bias vector as a one-row array -/

theorem first_aggregate (x0 : (⟨S100000x512, .f32⟩ : BufTy).Contents (Elt Ideal)) (x1 : (⟨S512x16, .f32⟩ : BufTy).Contents (Elt Ideal)) (x5 : (⟨S2x3200000, .i32⟩ : BufTy).Contents (Elt Ideal))
    (h30 : V (Proc.devRef .tc main_v30) = val_main_v30 (F := Ideal) x0 x1)
    (h29 : V (Proc.devRef .tc main_v29) = val_main_v29 (F := Ideal) x5)
    (h3 : V (Proc.devRef .tc main_v3) = val_main_v3 (F := Ideal) x5)
    (h6 : V (Proc.devRef .tc main_v6) = val_main_v6 (F := Ideal) x5) :
    after hostOps1 V (Proc.devRef .tc main_v43) = val_main_v43 (F := Ideal) x0 x1 x5 := by
  dsimp only [hostOps1]
  after_results_simp
  unfold val_main_v43 val_main_v42 val_main_v41 val_main_cst_8 val_main_v40 val_main_v39 val_main_v38 val_main_v37 val_main_v36 val_main_v35 val_main_v34 val_main_c_7 val_main_v33 val_main_v32 val_main_c_6 val_main_v31
  rw [← h30, ← h29, ← h3, ← h6]
  rfl

theorem bias1_row (x2 : (⟨S16, .f32⟩ : BufTy).Contents (Elt Ideal)) (h2 : V (Proc.devRef .tc main_arg2) = x2) (k : Fin 16) :
    after hostOps1 V (Proc.devRef .tc main_v44) (ix2 (0 : Fin 1) k) = x2 (ix1 k) := by
  dsimp only [hostOps1]
  after_results
  rw [h2]
  exact shapeCast_a_1a_apply x2 shapeCasts_S16_S1x16 (0 : Fin 1) k

/-! ## The stretch after the second layer: the second aggregate, and the class bias as a one-row array -/

theorem second_aggregate (x0 : (⟨S100000x512, .f32⟩ : BufTy).Contents (Elt Ideal)) (x1 : (⟨S512x16, .f32⟩ : BufTy).Contents (Elt Ideal)) (x2 : (⟨S16, .f32⟩ : BufTy).Contents (Elt Ideal)) (x3 : (⟨S16x40, .f32⟩ : BufTy).Contents (Elt Ideal)) (x5 : (⟨S2x3200000, .i32⟩ : BufTy).Contents (Elt Ideal))
    (h45 : V (Proc.devRef .tc main_v45) = val_main_v48 (F := Ideal) x0 x1 x2 x3 x5)
    (h29 : V (Proc.devRef .tc main_v29) = val_main_v29 (F := Ideal) x5)
    (h3 : V (Proc.devRef .tc main_v3) = val_main_v3 (F := Ideal) x5)
    (h6 : V (Proc.devRef .tc main_v6) = val_main_v6 (F := Ideal) x5) :
    after hostOps2 V (Proc.devRef .tc main_v58) = val_main_v61 (F := Ideal) x0 x1 x2 x3 x5 := by
  dsimp only [hostOps2]
  after_results_simp
  unfold val_main_v61 val_main_v60 val_main_v59 val_main_cst_11 val_main_v58 val_main_v57 val_main_v56 val_main_v55 val_main_v54 val_main_v53 val_main_v52 val_main_c_10 val_main_v51 val_main_v50 val_main_c_9 val_main_v49
  rw [← h45, ← h29, ← h3, ← h6]
  rfl

theorem bias2_row (x4 : (⟨S40, .f32⟩ : BufTy).Contents (Elt Ideal)) (h4 : V (Proc.devRef .tc main_arg4) = x4) (k : Fin 40) :
    after hostOps2 V (Proc.devRef .tc main_v59) (ix2 (0 : Fin 1) k) = x4 (ix1 k) := by
  dsimp only [hostOps2]
  after_results
  rw [h4]
  exact shapeCast_a_1a_apply x4 shapeCasts_S40_S1x40 (0 : Fin 1) k

/-! ## What each stretch leaves as it was -/

theorem keep_hostOps0_arg0 : after (hostOps0 (F := Ideal)) V (Proc.devRef .tc main_arg0) = V (Proc.devRef .tc main_arg0) := by
  dsimp only [hostOps0]
  after_results
theorem keep_hostOps0_arg1 : after (hostOps0 (F := Ideal)) V (Proc.devRef .tc main_arg1) = V (Proc.devRef .tc main_arg1) := by
  dsimp only [hostOps0]
  after_results
theorem keep_hostOps0_arg2 : after (hostOps0 (F := Ideal)) V (Proc.devRef .tc main_arg2) = V (Proc.devRef .tc main_arg2) := by
  dsimp only [hostOps0]
  after_results
theorem keep_hostOps0_arg3 : after (hostOps0 (F := Ideal)) V (Proc.devRef .tc main_arg3) = V (Proc.devRef .tc main_arg3) := by
  dsimp only [hostOps0]
  after_results
theorem keep_hostOps0_arg4 : after (hostOps0 (F := Ideal)) V (Proc.devRef .tc main_arg4) = V (Proc.devRef .tc main_arg4) := by
  dsimp only [hostOps0]
  after_results
theorem keep_hostOps0_1_v3 : after (hostOps0_1 (F := Ideal)) V (Proc.devRef .tc main_v3) = V (Proc.devRef .tc main_v3) := by
  dsimp only [hostOps0_1]
  after_results
theorem keep_hostOps0_1_v6 : after (hostOps0_1 (F := Ideal)) V (Proc.devRef .tc main_v6) = V (Proc.devRef .tc main_v6) := by
  dsimp only [hostOps0_1]
  after_results
theorem keep_hostOps0_1_arg0 : after (hostOps0_1 (F := Ideal)) V (Proc.devRef .tc main_arg0) = V (Proc.devRef .tc main_arg0) := by
  dsimp only [hostOps0_1]
  after_results
theorem keep_hostOps0_1_arg1 : after (hostOps0_1 (F := Ideal)) V (Proc.devRef .tc main_arg1) = V (Proc.devRef .tc main_arg1) := by
  dsimp only [hostOps0_1]
  after_results
theorem keep_hostOps0_1_arg2 : after (hostOps0_1 (F := Ideal)) V (Proc.devRef .tc main_arg2) = V (Proc.devRef .tc main_arg2) := by
  dsimp only [hostOps0_1]
  after_results
theorem keep_hostOps0_1_arg3 : after (hostOps0_1 (F := Ideal)) V (Proc.devRef .tc main_arg3) = V (Proc.devRef .tc main_arg3) := by
  dsimp only [hostOps0_1]
  after_results
theorem keep_hostOps0_1_arg4 : after (hostOps0_1 (F := Ideal)) V (Proc.devRef .tc main_arg4) = V (Proc.devRef .tc main_arg4) := by
  dsimp only [hostOps0_1]
  after_results
theorem keep_hostOps0_2_v3 : after (hostOps0_2 (F := Ideal)) V (Proc.devRef .tc main_v3) = V (Proc.devRef .tc main_v3) := by
  dsimp only [hostOps0_2]
  after_results
theorem keep_hostOps0_2_v6 : after (hostOps0_2 (F := Ideal)) V (Proc.devRef .tc main_v6) = V (Proc.devRef .tc main_v6) := by
  dsimp only [hostOps0_2]
  after_results
theorem keep_hostOps0_2_arg0 : after (hostOps0_2 (F := Ideal)) V (Proc.devRef .tc main_arg0) = V (Proc.devRef .tc main_arg0) := by
  dsimp only [hostOps0_2]
  after_results
theorem keep_hostOps0_2_arg1 : after (hostOps0_2 (F := Ideal)) V (Proc.devRef .tc main_arg1) = V (Proc.devRef .tc main_arg1) := by
  dsimp only [hostOps0_2]
  after_results
theorem keep_hostOps0_2_arg2 : after (hostOps0_2 (F := Ideal)) V (Proc.devRef .tc main_arg2) = V (Proc.devRef .tc main_arg2) := by
  dsimp only [hostOps0_2]
  after_results
theorem keep_hostOps0_2_arg3 : after (hostOps0_2 (F := Ideal)) V (Proc.devRef .tc main_arg3) = V (Proc.devRef .tc main_arg3) := by
  dsimp only [hostOps0_2]
  after_results
theorem keep_hostOps0_2_arg4 : after (hostOps0_2 (F := Ideal)) V (Proc.devRef .tc main_arg4) = V (Proc.devRef .tc main_arg4) := by
  dsimp only [hostOps0_2]
  after_results
theorem keep_hostOps1_v29 : after (hostOps1 (F := Ideal)) V (Proc.devRef .tc main_v29) = V (Proc.devRef .tc main_v29) := by
  dsimp only [hostOps1]
  after_results
theorem keep_hostOps1_v3 : after (hostOps1 (F := Ideal)) V (Proc.devRef .tc main_v3) = V (Proc.devRef .tc main_v3) := by
  dsimp only [hostOps1]
  after_results
theorem keep_hostOps1_v6 : after (hostOps1 (F := Ideal)) V (Proc.devRef .tc main_v6) = V (Proc.devRef .tc main_v6) := by
  dsimp only [hostOps1]
  after_results
theorem keep_hostOps1_arg3 : after (hostOps1 (F := Ideal)) V (Proc.devRef .tc main_arg3) = V (Proc.devRef .tc main_arg3) := by
  dsimp only [hostOps1]
  after_results
theorem keep_hostOps1_arg4 : after (hostOps1 (F := Ideal)) V (Proc.devRef .tc main_arg4) = V (Proc.devRef .tc main_arg4) := by
  dsimp only [hostOps1]
  after_results

end Cert.KernelIdeal.Bridge

end
-- ==== Proof.Spec.lean ====
/-
  The three dense stages of a two-layer graph convolution, each as ONE function of whole arrays over the extended reals,
  index by index. Rows are the 100000 nodes.

  * `proj1 x w`: the first projection, entry (n, h) = Σ_k x(n, k) · w(k, h) over the 512 input channels.
  * `layer2 a b w`: bias, rectifier, second projection: entry (n, o) = Σ_k max(a(n, k) + b(k), 0) · w(k, o) over the 16
    hidden channels.
  * `logSoftmaxRows a b`: with z(n, o) = a(n, o) + b(o), M(n) the maximum of row n of z (the fold of max from −∞) and
    s = z − M, entry (n, o) = s(n, o) − log Σ_k exp s(n, k) over the 40 classes.
-/
import Idealize.ShloMosaic.PureOps.Ideal
import Idealize.ShloMosaic.Lib.ValueIdx

noncomputable section

namespace Cert.Spec

open Idealize.ShloMosaic Idealize.ShloMosaic.ValueIdx

/-- An array of extended reals of a literal shape. -/
abbrev Arr (s : Shape) : Type := s.Idx → EReal

/-- The first projection: rows of `x` against the columns of `w`. -/
def proj1 (x : Arr ⟨2, ![100000, 512]⟩) (w : Arr ⟨2, ![512, 16]⟩) : Arr ⟨2, ![100000, 16]⟩ :=
  fun i => ∑ k : Fin 512, x (ix2 (i 0) k) * w (ix2 k (i 1))

/-- A hidden row after bias and rectifier. -/
def hidden (a : Arr ⟨2, ![100000, 16]⟩) (b : Arr ⟨1, ![16]⟩) (n : Fin 100000) (k : Fin 16) : EReal :=
  max (a (ix2 n k) + b (ix1 k)) 0

/-- Bias, rectifier and the second projection. -/
def layer2 (a : Arr ⟨2, ![100000, 16]⟩) (b : Arr ⟨1, ![16]⟩) (w : Arr ⟨2, ![16, 40]⟩) : Arr ⟨2, ![100000, 40]⟩ :=
  fun i => ∑ k : Fin 16, hidden a b (i 0) k * w (ix2 k (i 1))

/-- The logits: the aggregate plus the class bias. -/
def logit (a : Arr ⟨2, ![100000, 40]⟩) (b : Arr ⟨1, ![40]⟩) (n : Fin 100000) (o : Fin 40) : EReal :=
  a (ix2 n o) + b (ix1 o)

/-- A row's maximum logit: the fold of max from −∞ over the 40 classes. -/
def rowMax (a : Arr ⟨2, ![100000, 40]⟩) (b : Arr ⟨1, ![40]⟩) (n : Fin 100000) : EReal :=
  (Finset.univ : Finset (Fin 40)).fold max ⊥ (fun k => logit a b n k)

/-- The logits shifted by their row's maximum. -/
def shifted (a : Arr ⟨2, ![100000, 40]⟩) (b : Arr ⟨1, ![40]⟩) (n : Fin 100000) (o : Fin 40) : EReal :=
  logit a b n o - rowMax a b n

/-- The row-wise log-softmax of the logits. -/
def logSoftmaxRows (a : Arr ⟨2, ![100000, 40]⟩) (b : Arr ⟨1, ![40]⟩) : Arr ⟨2, ![100000, 40]⟩ :=
  fun i => shifted a b (i 0) (i 1) - Ideal.log (∑ k : Fin 40, Ideal.exp (shifted a b (i 0) k))

end Cert.Spec

end
-- ==== Proof.LibPlainDot.lean ====
/-
  A plain matrix product M×K by K×N into a zero accumulator, read at an entry over the extended reals: entry (p, q)
  is the sum over c of lhs (p, c) · rhs (c, q). The contraction index, a one-axis multi-index, is re-indexed to its
  one coordinate.
-/
import Idealize.ShloMosaic.Lib.ValueIdx
import Idealize.ShloMosaic.PureOps.Ideal.Laws

namespace Cert.LibPlainDot

open Idealize.ShloMosaic Idealize.ShloMosaic.ValueIdx

/-- The left operand's index at result entry `(p, q)` and contraction coordinate `c` is `(p, c)`. -/
theorem plain_lhsIdx (M K N : ℕ) (p : Fin M) (q : Fin N) (c : Fin K) :
    (DotDims.plain M K N).lhsIdx (ix2 p q) ((contrEquiv1 (DotDims.plain M K N) K rfl rfl).symm c) = ix2 p c := by
  funext a
  refine Fin.ext ?_
  match a with
  | ⟨0, _⟩ => rfl
  | ⟨1, _⟩ =>
    show ((DotDims.plain M K N).lhsIdx (ix2 p q) ((contrEquiv1 (DotDims.plain M K N) K rfl rfl).symm c) 1).val = c.val
    rw [(DotDims.plain M K N).lhsIdx_val_of_single (cl := 1) rfl]
    exact contrEquiv1_symm_val (DotDims.plain M K N) K rfl rfl c

/-- The right operand's index there is `(c, q)`. -/
theorem plain_rhsIdx (M K N : ℕ) (p : Fin M) (q : Fin N) (c : Fin K) :
    (DotDims.plain M K N).rhsIdx (ix2 p q) ((contrEquiv1 (DotDims.plain M K N) K rfl rfl).symm c) = ix2 c q := by
  funext a
  refine Fin.ext ?_
  match a with
  | ⟨0, _⟩ =>
    show ((DotDims.plain M K N).rhsIdx (ix2 p q) ((contrEquiv1 (DotDims.plain M K N) K rfl rfl).symm c) 0).val = c.val
    rw [(DotDims.plain M K N).rhsIdx_val_of_single (cr := 0) rfl]
    exact contrEquiv1_symm_val (DotDims.plain M K N) K rfl rfl c
  | ⟨1, _⟩ => rfl

/-- Entry `(p, q)` of a plain product into the zero accumulator is `∑ c, lhs (p, c) · rhs (c, q)`. -/
theorem matmul_plain_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ c : Fin K, lhs (ix2 p c) * rhs (ix2 c q) := by
  rw [Ideal.matmul_constant_zero_apply, ← Equiv.sum_comp (contrEquiv1 (DotDims.plain M K N) K rfl rfl).symm]
  refine Finset.sum_congr rfl fun c _ => ?_
  rw [plain_lhsIdx, plain_rhsIdx]

end Cert.LibPlainDot
-- ==== Proof.ProjRegion.lean ====
/-
  The first projection's region. Its grid has 20 points; point t stages rows 5000·t … 5000·t + 4999 of x (all 512 columns),
  the whole of w, and writes back rows 5000·t … of the [100000, 16] result. The body multiplies the two staged blocks into a
  zero accumulator, so entry (p, q) of what point t writes is Σ_k x(5000·t + p, k) · w(k, q): block t of `Spec.proj1 x w`.
  The 20 blocks tile the result, so after the region the result array is `Spec.proj1` of the two arrays the region found.
-/
import proofs.«181830_j893353198188_1_alg».proof.Proof.Gen.KernelIdeal.Frame
import proofs.«181830_j893353198188_1_alg».proof.Proof.Spec
import proofs.«181830_j893353198188_1_alg».proof.Proof.LibPlainDot
import Idealize.ShloMosaic.Lib.Pipeline.Value
import Idealize.ShloMosaic.Lib.ValueIdx
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem

/-- Entry (p, q) of the body's product of a [5000, 512] block and the [512, 16] weights. -/
theorem proj_block_apply (x0 : FVec Ideal S5000x512 .f32) (x1 : FVec Ideal S512x16 .f32) (p : Fin 5000) (q : Fin 16) :
    k0_pay1 (F := Ideal) x0 x1 (ix2 p q) = ∑ k : Fin 512, x0 (ix2 p k) * x1 (ix2 k q) :=
  Cert.LibPlainDot.matmul_plain_zero_apply 5000 512 16 none (truncf .bf16 x0 bitsLt_bf16_f32) (truncf .bf16 x1 bitsLt_bf16_f32) p q

theorem origin2 : (![0, 0] : Fin 2 → Nat) = fun _ => 0 := funext fun a => by fin_cases a <;> rfl

/-- The index maps over the grid: x's and the result's block row is the point, every block column is 0, the weights' block is
    the one block. -/
theorem proj_index : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point t writes back is block t of the projection of the arrays the region found. -/
theorem proj_flushed (c : Dev nD) (t : Fin cfg0.N) :
    (dat0 (F := Ideal) V c).flushed 2 t
      = ((cfg0.win 2).blk t).view.read (Elt Ideal) (Spec.proj1 (V c main_arg0) (V c main_arg1)) := by
  show (cfg0.win 2).cut (grid0.coords t) ((dat0 V c).after 2 t) = _
  rw [after0_2]
  unfold out0_2
  rw [View.canon_unit_zero origin2]
  simp only [View.ld_unit_zero (S := S5000x512) origin2, View.ld_unit_zero (S := S512x16) origin2]
  obtain ⟨e0, e1, e2, e3, e4, e5⟩ := proj_index t
  funext j
  obtain ⟨p, q, rfl⟩ : ∃ (p : Fin 5000) (q : Fin 16), j = ix2 p q := ⟨j 0, j 1, eq_ix2 j⟩
  show k0_pay1 (iblk0 V c 0 t) (iblk0 V c 1 t) (ix2 p q)
    = Spec.proj1 (V c main_arg0) (V c main_arg1) (((cfg0.win 2).blk t).view.emb (ix2 p q))
  refine (proj_block_apply _ _ p q).trans ?_
  unfold Spec.proj1
  refine Finset.sum_congr rfl fun k _ => ?_
  have hx : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) ?_
    funext a; apply Fin.ext
    match a with
    | ⟨0, _⟩ =>
      show win0_0.index t (0 : Fin 2) * 5000 + 1 * p.val = win0_2.index t (0 : Fin 2) * 5000 + 1 * p.val
      omega
    | ⟨1, _⟩ =>
      show win0_0.index t (1 : Fin 2) * 512 + 1 * k.val = k.val
      omega
  have hw : iblk0 V c 1 t (ix2 k q) = V c main_arg1 (ix2 k ((((cfg0.win 2).blk t).view.emb (ix2 p q)) 1)) := by
    show V c main_arg1 (((cfg0.win 1).blk t).view.emb (ix2 k q)) = _
    refine congrArg (V c main_arg1) ?_
    funext a; apply Fin.ext
    match a with
    | ⟨0, _⟩ =>
      show win0_1.index t (0 : Fin 2) * 512 + 1 * k.val = k.val
      omega
    | ⟨1, _⟩ =>
      show win0_1.index t (1 : Fin 2) * 16 + 1 * q.val = win0_2.index t (1 : Fin 2) * 16 + 1 * q.val
      omega
  rw [hx, hw]

/-- An index of the result is in point t's block iff each coordinate is in the block's range on its axis. -/
theorem proj_mem_blk (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v30).slice (win0_2.rect t)).set ↔ _
  rw [View.set_slice_whole, Rect.mem_set_unit]
  exact Iff.rfl

/-- Row r of the result is written by point r / 5000. -/
theorem proj_cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  refine ⟨⟨(i 0).val / 5000, by rw [hN]; omega⟩, flush0_2 _, ?_⟩
  rw [proj_mem_blk]
  obtain ⟨-, -, -, -, e4, e5⟩ := proj_index ⟨(i 0).val / 5000, by rw [hN]; omega⟩
  intro a
  match a with
  | ⟨0, _⟩ =>
    show win0_2.index _ (0 : Fin 2) * 5000 ≤ (i 0).val ∧ (i 0).val < win0_2.index _ (0 : Fin 2) * 5000 + 5000
    rw [e4]
    show (i 0).val / 5000 * 5000 ≤ (i 0).val ∧ (i 0).val < (i 0).val / 5000 * 5000 + 5000
    omega
  | ⟨1, _⟩ =>
    show win0_2.index _ (1 : Fin 2) * 16 ≤ (i 1).val ∧ (i 1).val < win0_2.index _ (1 : Fin 2) * 16 + 16
    rw [e5]
    omega

/-- After the region its result array is the projection of the arrays it found. -/
theorem proj_array (c : Dev nD) :
    (dat0 (F := Ideal) V c).arrAt 2 cfg0.N = Spec.proj1 (V c main_arg0) (V c main_arg1) :=
  (dat0 (F := Ideal) V c).arrAt_eq_of_cover 2 _ (fun t _ => proj_flushed V c t) proj_cover

end Cert.KernelIdeal.Bridge

end
-- ==== Proof.LayerRegion.lean ====
/-
  The second layer's region. Its grid has 20 points; point t stages rows 5000·t … of the [100000, 16] aggregate, the one
  [1, 16] row of biases, the whole [16, 40] weights, and writes back rows 5000·t … of the [100000, 40] result. The body adds
  the bias row to every row of the block, takes the maximum with zero, and multiplies by the weights into a zero
  accumulator: entry (p, q) of what point t writes is Σ_k max(a(5000·t + p, k) + b(k), 0) · w(k, q), block t of
  `Spec.layer2 a b w`. The 20 blocks tile the result.
-/
import proofs.«181830_j893353198188_1_alg».proof.Proof.Gen.KernelIdeal.Frame
import proofs.«181830_j893353198188_1_alg».proof.Proof.Spec
import proofs.«181830_j893353198188_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem

/-- Entry (p, q) of the body's result on a [5000, 16] block, the bias row and the weights. -/
theorem layer_block_apply (v0 : FVec Ideal S5000x16 .f32) (v2 : FVec Ideal S1x16 .f32) (v9 : FVec Ideal S16x40 .f32)
    (p : Fin 5000) (q : Fin 40) :
    k1_pay1 (F := Ideal) v0 v2 v9 (ix2 p q)
      = ∑ k : Fin 16, max (v0 (ix2 p k) + v2 (ix2 (0 : Fin 1) k)) 0 * v9 (ix2 k q) := by
  show matmul dot_S5000x16_S16x40_S5000x40_1_0_0_1_n_n none
      (truncf .bf16 (maximumf (addf (shapeCast S5000x16 v0 shapeCasts_S5000x16_S5000x16)
          (broadcastTo S5000x16 (shapeCast S1x16 v2 shapeCasts_S1x16_S1x16) broadcasts_S1x16_S5000x16))
        (broadcast S5000x16 (Scalar.ofBits .f32 0x00000000#32))) bitsLt_bf16_f32)
      (truncf .bf16 v9 bitsLt_bf16_f32) (constant S5000x40 .f32 0x00000000#32) (ix2 p q) = _
  refine (Cert.LibPlainDot.matmul_plain_zero_apply 5000 16 40 none _ _ p q).trans ?_
  refine Finset.sum_congr rfl fun k _ => ?_
  show max ((shapeCast S5000x16 v0 shapeCasts_S5000x16_S5000x16) (ix2 p k)
      + (broadcastTo S5000x16 (shapeCast S1x16 v2 shapeCasts_S1x16_S1x16) broadcasts_S1x16_S5000x16) (ix2 p k))
      (Ideal.ofBits .f32 0x00000000#32) * v9 (ix2 k q) = _
  rw [shapeCast_self, shapeCast_self, broadcastTo_1b_ab_apply, Ideal.ofBits_zero_f32]

theorem origin2' : (![0, 0] : Fin 2 → Nat) = fun _ => 0 := funext fun a => by fin_cases a <;> rfl

/-- The index maps over the grid: the aggregate's and the result's block row is the point; the bias row and the weights
    are one block each. -/
theorem layer_index : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

variable (V : (c : Dev nD) → (b : Ref sig .tc) → Buf (Elt Ideal) ((c : Thread nD τ).loc b))

/-- What point t writes back is block t of the second layer of the arrays the region found, the bias row read as a vector. -/
theorem layer_flushed (c : Dev nD) (b : Spec.Arr ⟨1, ![16]⟩)
    (hb : ∀ k : Fin 16, V c main_v44 (ix2 (0 : Fin 1) k) = b (ix1 k)) (t : Fin cfg1.N) :
    (dat1 (F := Ideal) V c).flushed 3 t
      = ((cfg1.win 3).blk t).view.read (Elt Ideal) (Spec.layer2 (V c main_v43) b (V c main_arg3)) := by
  show (cfg1.win 3).cut (grid1.coords t) ((dat1 V c).after 3 t) = _
  rw [after1_3]
  unfold out1_3
  rw [View.canon_unit_zero origin2']
  simp only [View.ld_unit_zero (S := S5000x16) origin2', View.ld_unit_zero (S := S1x16) origin2',
    View.ld_unit_zero (S := S16x40) origin2']
  obtain ⟨e0, e1, e2, e3, e4, e5, e6, e7⟩ := layer_index t
  funext j
  obtain ⟨p, q, rfl⟩ : ∃ (p : Fin 5000) (q : Fin 40), j = ix2 p q := ⟨j 0, j 1, eq_ix2 j⟩
  show k1_pay1 (iblk1 V c 0 t) (iblk1 V c 1 t) (iblk1 V c 2 t) (ix2 p q)
    = Spec.layer2 (V c main_v43) b (V c main_arg3) (((cfg1.win 3).blk t).view.emb (ix2 p q))
  refine (layer_block_apply _ _ _ p q).trans ?_
  unfold Spec.layer2 Spec.hidden
  refine Finset.sum_congr rfl fun k _ => ?_
  have ha : iblk1 V c 0 t (ix2 p k) = V c main_v43 (ix2 ((((cfg1.win 3).blk t).view.emb (ix2 p q)) 0) k) := by
    show V c main_v43 (((cfg1.win 0).blk t).view.emb (ix2 p k)) = _
    refine congrArg (V c main_v43) ?_
    funext a; apply Fin.ext
    match a with
    | ⟨0, _⟩ =>
      show win1_0.index t (0 : Fin 2) * 5000 + 1 * p.val = win1_3.index t (0 : Fin 2) * 5000 + 1 * p.val
      omega
    | ⟨1, _⟩ =>
      show win1_0.index t (1 : Fin 2) * 16 + 1 * k.val = k.val
      omega
  have hbk : iblk1 V c 1 t (ix2 (0 : Fin 1) k) = b (ix1 k) := by
    show V c main_v44 (((cfg1.win 1).blk t).view.emb (ix2 (0 : Fin 1) k)) = _
    refine (congrArg (V c main_v44) ?_).trans (hb k)
    funext a; apply Fin.ext
    match a with
    | ⟨0, _⟩ =>
      show win1_1.index t (0 : Fin 2) * 1 + 1 * 0 = 0
      omega
    | ⟨1, _⟩ =>
      show win1_1.index t (1 : Fin 2) * 16 + 1 * k.val = k.val
      omega
  have hw : iblk1 V c 2 t (ix2 k q) = V c main_arg3 (ix2 k ((((cfg1.win 3).blk t).view.emb (ix2 p q)) 1)) := by
    show V c main_arg3 (((cfg1.win 2).blk t).view.emb (ix2 k q)) = _
    refine congrArg (V c main_arg3) ?_
    funext a; apply Fin.ext
    match a with
    | ⟨0, _⟩ =>
      show win1_2.index t (0 : Fin 2) * 16 + 1 * k.val = k.val
      omega
    | ⟨1, _⟩ =>
      show win1_2.index t (1 : Fin 2) * 40 + 1 * q.val = win1_3.index t (1 : Fin 2) * 40 + 1 * q.val
      omega
  rw [ha, hbk, hw]

/-- An index of the result is in point t's block iff each coordinate is in the block's range on its axis. -/
theorem layer_mem_blk (t : Fin cfg1.N) (i : S100000x40.Idx) :
    i ∈ ((cfg1.win 3).blk t).view.set ↔ ∀ a : Fin 2, win1_3.index t a * S5000x40.size a ≤ (i a).val
      ∧ (i a).val < win1_3.index t a * S5000x40.size a + S5000x40.size a := by
  show i ∈ ((View.whole main_v45).slice (win1_3.rect t)).set ↔ _
  rw [View.set_slice_whole, Rect.mem_set_unit]
  exact Iff.rfl

/-- Row r of the result is written by point r / 5000. -/
theorem layer_cover (i : S100000x40.Idx) :
    ∃ t : Fin cfg1.N, (cfg1.win 3).flush t = true ∧ i ∈ ((cfg1.win 3).blk t).view.set := by
  have hi0 : (i 0).val < 100000 := (i 0).isLt
  have hi1 : (i 1).val < 40 := (i 1).isLt
  have hN : cfg1.N = 20 := N_1
  refine ⟨⟨(i 0).val / 5000, by rw [hN]; omega⟩, flush1_3 _, ?_⟩
  rw [layer_mem_blk]
  obtain ⟨-, -, -, -, -, -, e6, e7⟩ := layer_index ⟨(i 0).val / 5000, by rw [hN]; omega⟩
  intro a
  match a with
  | ⟨0, _⟩ =>
    show win1_3.index _ (0 : Fin 2) * 5000 ≤ (i 0).val ∧ (i 0).val < win1_3.index _ (0 : Fin 2) * 5000 + 5000
    rw [e6]
    show (i 0).val / 5000 * 5000 ≤ (i 0).val ∧ (i 0).val < (i 0).val / 5000 * 5000 + 5000
    omega
  | ⟨1, _⟩ =>
    show win1_3.index _ (1 : Fin 2) * 40 ≤ (i 1).val ∧ (i 1).val < win1_3.index _ (1 : Fin 2) * 40 + 40
    rw [e7]
    omega

/-- After the region its result array is the second layer of the arrays it found. -/
theorem layer_array (c : Dev nD) (b : Spec.Arr ⟨1, ![16]⟩)
    (hb : ∀ k : Fin 16, V c main_v44 (ix2 (0 : Fin 1) k) = b (ix1 k)) :
    (dat1 (F := Ideal) V c).arrAt 3 cfg1.N = Spec.layer2 (V c main_v43) b (V c main_arg3) :=
  (dat1 (F := Ideal) V c).arrAt_eq_of_cover 3 _ (fun t _ => layer_flushed V c b hb t) layer_cover

end Cert.KernelIdeal.Bridge

end
-- ==== Proof.LibKeepdims.lean ====
/-
  Two layout operations of a keep-dimensions reduction read at an index of a rank-2 array: a column `[a, 1]` broadcast
  along its unit axis to `[a, b]`, and a vector `[a]` cast to the column `[a, 1]`. (The row form `[1, b] → [a, b]` and
  the leading-unit-axis casts are the library's, Lib/ValueLayout.lean.)
-/
import Idealize.ShloMosaic.Lib.Pipeline.Value
import Idealize.ShloMosaic.Lib.ValueIdx

namespace Idealize.ShloMosaic.ValueIdx

open Idealize.ShloMosaic

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to the column `[a, 1]` reads, at `(p, u)`, the vector's entry `p`. -/
theorem shapeCast_a_a1_apply {a : ℕ} (v : (⟨1, ![a]⟩ : Shape).Idx → α) (h : (⟨1, ![a]⟩ : Shape).ShapeCasts ⟨2, ![a, 1]⟩)
    (p : Fin a) (u : Fin 1) : shapeCast ⟨2, ![a, 1]⟩ v h (ix2 p u) = v (ix1 p) :=
  shapeCast_apply v h _ _ (by
    rw [Shape.rowMajor_val_one, Shape.rowMajor_val_two]
    show p.val = p.val * 1 + u.val
    have := u.isLt
    omega)

/-- A column `[a, 1]` cast to the vector `[a]` reads, at `p`, the column's entry of row `p`. -/
theorem shapeCast_a1_a_apply {a : ℕ} (v : (⟨2, ![a, 1]⟩ : Shape).Idx → α) (h : (⟨2, ![a, 1]⟩ : Shape).ShapeCasts ⟨1, ![a]⟩)
    (p : Fin a) : shapeCast ⟨1, ![a]⟩ v h (ix1 p) = v (ix2 p (0 : Fin 1)) :=
  shapeCast_apply v h _ _ (by
    rw [Shape.rowMajor_val_two, Shape.rowMajor_val_one]
    show p.val * 1 + 0 = p.val
    omega)

end Idealize.ShloMosaic.ValueIdx
-- ==== Proof.SoftmaxRegion.lean ====
/-
  The log-softmax region. Its grid has 20 points; point t stages rows 5000·t … of the [100000, 40] aggregate and the one
  [1, 40] row of class biases, and writes back rows 5000·t … of the result. With z(p, k) = a(p, k) + b(k) the logits of a
  block, M(p) the maximum of row p (a fold of max from −∞), s = z − M, the body stores s(p, q) − log Σ_k exp s(p, k): block
  t of `Spec.logSoftmaxRows a b`. The 20 blocks tile the result.
-/
import proofs.«181830_j893353198188_1_alg».proof.Proof.Gen.KernelIdeal.Frame
import proofs.«181830_j893353198188_1_alg».proof.Proof.Spec
import proofs.«181830_j893353198188_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Bridge

open Cert.KernelIdeal Cert.KernelIdeal.Gen
open Idealize.ShloMosaic Idealize.ShloMosaic.TcCoe Idealize.ShloMosaic.ValueIdx Idealize.SL.Sem

/-- The word of −∞ denotes the bottom of the extended reals. -/
theorem neg_inf_word : Ideal.ofBits .f32 0xFF800000#32 = (⊥ : EReal) := by simp [Ideal.ofBits, Ideal.ieee]

/-- Inserting column k into the row index p of a [5000, 40] block gives (p, k). -/
theorem lift_row (h : S5000x40.Reduces [1] S5000) (p : Fin 5000) (k : Fin 40) : h.lift (ix1 p) k = ix2 p k :=
  funext fun d => match d with
    | ⟨0, _⟩ => rfl
    | ⟨1, _⟩ => rfl

/-- A row's maximum, kept as a column and spread back over the row: at (p, k) it is the fold of max from −∞ over row p. -/
theorem keep_rowmax_apply (z : FVec Ideal S5000x40 .f32) (h : S5000x40.Reduces [1] S5000) (hc : S5000.ShapeCasts S5000x1)
    (hb : S5000x1.Broadcasts S5000x40) (p : Fin 5000) (k : Fin 40) :
    broadcastTo S5000x40 (shapeCast S5000x1 (multiReduction .maximumf [1] S5000 z 0xFF800000#32 h (.inl rfl) rfl) hc) hb (ix2 p k)
      = (Finset.univ : Finset (Fin 40)).fold max ⊥ (fun j => z (ix2 p j)) := by
  rw [broadcastTo_a1_ab_apply, shapeCast_a_a1_apply]
  refine (Ideal.multiReduction_maximumf_single z 0xFF800000#32 h (.inl rfl) rfl (ix1 p)).trans ?_
  show (Finset.univ : Finset (Fin 40)).fold max (Ideal.ofBits .f32 0xFF800000#32) (fun j => z (h.lift (ix1 p) j)) = _
  rw [neg_inf_word]
  exact congrArg (fun f : Fin 40 → EReal => (Finset.univ : Finset (Fin 40)).fold max ⊥ f)
    (funext fun j => congrArg z (lift_row h p j))

/-- The logarithm of a row's sum, kept as a column and spread back over the row. -/
theorem keep_logsum_apply (e : FVec Ideal S5000x40 .f32) (h : S5000x40.Reduces [1] S5000) (hc : S5000.ShapeCasts S5000x1)
    (hb : S5000x1.Broadcasts S5000x40) (p : Fin 5000) (q : Fin 40) :
    broadcastTo S5000x40 (log (shapeCast S5000x1 (multiReduction .add [1] S5000 e 0x00000000#32 h (.inl rfl) rfl) hc)) hb (ix2 p q)
      = Ideal.log (∑ k : Fin 40, e (ix2 p k)) := by
  rw [broadcastTo_a1_ab_apply]
  show Ideal.log (shapeCast S5000x1 (multiReduction .add [1] S5000 e 0x00000000#32 h (.inl rfl) rfl) hc (ix2 p (0 : Fin 1))) = _
  rw [shapeCast_a_a1_apply]
  refine congrArg Ideal.log ?_
  refine (Ideal.multiReduction_add_single e 0x00000000#32 h (.inl rfl) rfl (ix1 p)).trans ?_
  exact Finset.sum_congr rfl fun k _ => congrArg e (lift_row h p k)

/-- The body's arithmetic on a block of logits z: shifted by the row maximum, less the log of the row's sum of exponentials. -/
theorem logsoftmax_of_logits (z : FVec Ideal S5000x40 .f32) (h : S5000x40.Reduces [1] S5000) (hc : S5000.ShapeCasts S5000x1)
    (hb : S5000x1.Broadcasts S5000x40) (p : Fin 5000) (q : Fin 40) :
    subf (subf z (broadcastTo S5000x40 (shapeCast S5000x1 (multiReduction .maximumf [1] S5000 z 0xFF800000#32 h (.inl rfl) rfl) hc) hb))
        (broadcastTo S5000x40 (log (shapeCast S5000x1 (multiReduction .add [1] S5000
          (exp (subf z (broadcastTo S5000x40 (shapeCast S5000x1 (multiReduction .maximumf [1] S5000 z 0xFF800000#32 h (.inl rfl) rfl) hc) hb)))
          0x00000000#32 h (.inl rfl) rfl) hc)) hb) (ix2 p q)
      = (z (ix2 p q) - (Finset.univ : Finset (Fin 40)).fold max ⊥ (fun j => z (ix2 p j)))
        - Ideal.log (∑ k : Fin 40, Ideal.exp (z (ix2 p k) - (Finset.univ : Finset (Fin 40)).fold max ⊥ (fun j => z (ix2 p j)))) := by
  show (z (ix2 p q) - broadcastTo S5000x40 (shapeCast S5000x1 (multiReduction .maximumf [1] S5000 z 0xFF800000#32 h (.inl rfl) rfl) hc) hb (ix2 p q))
      - broadcastTo S5000x40 (log (shapeCast S5000x1 (multiReduction .add [1] S5000
          (exp (subf z (broadcastTo S5000x40 (shapeCast S5000x1 (multiReduction .maximumf [1] S5000 z 0xFF800000#32 h (.inl rfl) rfl) hc) hb)))
          0x00000000#32 h (.inl rfl) rfl) hc)) hb (ix2 p q) = _
  rw [keep_rowmax_apply, keep_logsum_apply]
  refine congrArg (fun r => (z (ix2 p q) - (Finset.univ : Finset (Fin 40)).fold max ⊥ (fun j => z (ix2 p j))) - Ideal.log r) ?_
  refine Finset.sum_congr rfl fun k _ => ?_
  show Ideal.exp (z (ix2 p k) - broadcastTo S5000x40 (shapeCast S5000x1 (multiReduction .maximumf [1] S5000 z 0xFF800000#32 h (.inl rfl) rfl) hc) hb (ix2 p k)) = _
  rw [keep_rowmax_apply]

/-- A block's logits: the staged rows plus the one staged bias row. -/
theorem block_logit_apply (v0 : FVec Ideal S5000x40 .f32) (v2 : FVec Ideal S1x40 .f32) (h0 : S5000x40.ShapeCasts S5000x40)
    (h1 : S1x40.ShapeCasts S1x40) (hb : S1x40.Broadcasts S5000x40) (p : Fin 5000) (k : Fin 40) :
    addf (shapeCast S5000x40 v0 h0) (broadcastTo S5000x40 (shapeCast S1x40 v2 h1) hb) (ix2 p k)
      = v0 (ix2 p k) + v2 (ix2 (0 : Fin 1) k) := by
  show shapeCast S5000x40 v0 h0 (ix2 p k) + broadcastTo S5000x40 (shapeCast S1x40 v2 h1) hb (ix2 p k) = _
  rw [shapeCast_self, shapeCast_self, broadcastTo_1b_ab_apply]

/-- Entry (p, q) of the body's result on a [5000, 40] block and the bias row. -/
theorem softmax_block_apply (v0 : FVec Ideal S5000x40 .f32) (v2 : FVec Ideal S1x40 .f32) (p : Fin 5000) (q : Fin 40) :
    k2_pay1 (F := Ideal) v0 v2 (ix2 p q)
      = ((v0 (ix2 p q) + v2 (ix2 (0 : Fin 1) q))
          - (Finset.univ : Finset (Fin 40)).fold max ⊥ (fun j => v0 (ix2 p j) + v2 (ix2 (0 : Fin 1) j)))
        - Ideal.log (∑ k : Fin 40, Ideal.exp ((v0 (ix2 p k) + v2 (ix2 (0 : Fin 1) k))
          - (Finset.univ : Finset (Fin 40)).fold max ⊥ (fun j => v0 (ix2 p j) + v2 (ix2 (0 : Fin 1) j)))) := by
  refine (logsoftmax_of_logits (addf (shapeCast S5000x40 v0 shapeCasts_S5000x40_S5000x40)
      (broadcastTo S5000x40 (shapeCast S1x40 v2 shapeCasts_S1x40_S1x40) broadcasts_S1x40_S5000x40))
    reduces_S5000x40_S5000 shapeCasts_S5000_S5000x1 broadcasts_S5000x1_S5000x40 p q).trans ?_
  simp only [block_logit_apply]

theorem origin2'' : (![0, 0] : Fin 2 → Nat) = fun _ => 0 := funext fun a => by fin_cases a <;> rfl

/-- The index maps over the grid: the aggregate's and the result's block row is the point; the bias row is one block. -/
theorem softmax_index : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

variable (V : (c : Dev nD) → (b : Ref sig .tc) → Buf (Elt Ideal) ((c : Thread nD τ).loc b))

/-- What point t writes back is block t of the row-wise log-softmax of the arrays the region found, the bias row read as a vector. -/
theorem softmax_flushed (c : Dev nD) (b : Spec.Arr ⟨1, ![40]⟩)
    (hb : ∀ k : Fin 40, V c main_v59 (ix2 (0 : Fin 1) k) = b (ix1 k)) (t : Fin cfg2.N) :
    (dat2 (F := Ideal) V c).flushed 2 t
      = ((cfg2.win 2).blk t).view.read (Elt Ideal) (Spec.logSoftmaxRows (V c main_v58) b) := by
  show (cfg2.win 2).cut (grid2.coords t) ((dat2 V c).after 2 t) = _
  rw [after2_2]
  unfold out2_2
  rw [View.canon_unit_zero origin2'']
  simp only [View.ld_unit_zero (S := S5000x40) origin2'', View.ld_unit_zero (S := S1x40) origin2'']
  obtain ⟨e0, e1, e2, e3, e4, e5⟩ := softmax_index t
  funext j
  obtain ⟨p, q, rfl⟩ : ∃ (p : Fin 5000) (q : Fin 40), j = ix2 p q := ⟨j 0, j 1, eq_ix2 j⟩
  show k2_pay1 (iblk2 V c 0 t) (iblk2 V c 1 t) (ix2 p q)
    = Spec.logSoftmaxRows (V c main_v58) b (((cfg2.win 2).blk t).view.emb (ix2 p q))
  refine (softmax_block_apply _ _ p q).trans ?_
  have ha : ∀ k : Fin 40, iblk2 V c 0 t (ix2 p k)
      = V c main_v58 (ix2 ((((cfg2.win 2).blk t).view.emb (ix2 p q)) 0) k) := fun k => by
    show V c main_v58 (((cfg2.win 0).blk t).view.emb (ix2 p k)) = _
    refine congrArg (V c main_v58) ?_
    funext a; apply Fin.ext
    match a with
    | ⟨0, _⟩ =>
      show win2_0.index t (0 : Fin 2) * 5000 + 1 * p.val = win2_2.index t (0 : Fin 2) * 5000 + 1 * p.val
      omega
    | ⟨1, _⟩ =>
      show win2_0.index t (1 : Fin 2) * 40 + 1 * k.val = k.val
      omega
  have hbk : ∀ k : Fin 40, iblk2 V c 1 t (ix2 (0 : Fin 1) k) = b (ix1 k) := fun k => by
    show V c main_v59 (((cfg2.win 1).blk t).view.emb (ix2 (0 : Fin 1) k)) = _
    refine (congrArg (V c main_v59) ?_).trans (hb k)
    funext a; apply Fin.ext
    match a with
    | ⟨0, _⟩ =>
      show win2_1.index t (0 : Fin 2) * 1 + 1 * 0 = 0
      omega
    | ⟨1, _⟩ =>
      show win2_1.index t (1 : Fin 2) * 40 + 1 * k.val = k.val
      omega
  have hq : ((((cfg2.win 2).blk t).view.emb (ix2 p q)) 1) = q := by
    apply Fin.ext
    show win2_2.index t (1 : Fin 2) * 40 + 1 * q.val = q.val
    omega
  simp only [ha, hbk]
  unfold Spec.logSoftmaxRows Spec.shifted Spec.rowMax Spec.logit
  rw [hq]

/-- An index of the result is in point t's block iff each coordinate is in the block's range on its axis. -/
theorem softmax_mem_blk (t : Fin cfg2.N) (i : S100000x40.Idx) :
    i ∈ ((cfg2.win 2).blk t).view.set ↔ ∀ a : Fin 2, win2_2.index t a * S5000x40.size a ≤ (i a).val
      ∧ (i a).val < win2_2.index t a * S5000x40.size a + S5000x40.size a := by
  show i ∈ ((View.whole main_v60).slice (win2_2.rect t)).set ↔ _
  rw [View.set_slice_whole, Rect.mem_set_unit]
  exact Iff.rfl

/-- Row r of the result is written by point r / 5000. -/
theorem softmax_cover (i : S100000x40.Idx) :
    ∃ t : Fin cfg2.N, (cfg2.win 2).flush t = true ∧ i ∈ ((cfg2.win 2).blk t).view.set := by
  have hi0 : (i 0).val < 100000 := (i 0).isLt
  have hi1 : (i 1).val < 40 := (i 1).isLt
  have hN : cfg2.N = 20 := N_2
  refine ⟨⟨(i 0).val / 5000, by rw [hN]; omega⟩, flush2_2 _, ?_⟩
  rw [softmax_mem_blk]
  obtain ⟨-, -, -, -, e4, e5⟩ := softmax_index ⟨(i 0).val / 5000, by rw [hN]; omega⟩
  intro a
  match a with
  | ⟨0, _⟩ =>
    show win2_2.index _ (0 : Fin 2) * 5000 ≤ (i 0).val ∧ (i 0).val < win2_2.index _ (0 : Fin 2) * 5000 + 5000
    rw [e4]
    show (i 0).val / 5000 * 5000 ≤ (i 0).val ∧ (i 0).val < (i 0).val / 5000 * 5000 + 5000
    omega
  | ⟨1, _⟩ =>
    show win2_2.index _ (1 : Fin 2) * 40 ≤ (i 1).val ∧ (i 1).val < win2_2.index _ (1 : Fin 2) * 40 + 40
    rw [e5]
    omega

/-- After the region its result array is the row-wise log-softmax of the arrays it found. -/
theorem softmax_array (c : Dev nD) (b : Spec.Arr ⟨1, ![40]⟩)
    (hb : ∀ k : Fin 40, V c main_v59 (ix2 (0 : Fin 1) k) = b (ix1 k)) :
    (dat2 (F := Ideal) V c).arrAt 2 cfg2.N = Spec.logSoftmaxRows (V c main_v58) b :=
  (dat2 (F := Ideal) V c).arrAt_eq_of_cover 2 _ (fun t _ => softmax_flushed V c b hb t) softmax_cover

end Cert.KernelIdeal.Bridge

end
-- ==== Proof.LibHostReduceMax.lean ====
/-
  The host's reduction with a maximum body over one axis, read at an index.
-/
import Idealize.ShloMosaic.PureOps.Ideal
import Idealize.ShloMosaic.PureOps.Ideal.Laws
import Idealize.ShloMosaic.PureOps.Reduce

noncomputable section

namespace Cert.ReferenceIdeal.RefValue

open Idealize.ShloMosaic

/-- The host's reduction with a maximum body over ONE axis, from an initial value that is −∞, read at an index: the
    fold of max from ⊥ over that axis's coordinates (the reduced index with the coordinate inserted). -/
theorem hostReduce_max_single {s t u : Shape} {a : Fin s.rank} (x : s.Idx → EReal) (init : u.Idx → EReal)
    (h' : s.ReducesTo [a] t) (h : s.Reduces [a] t) (hu : 0 < u.numel) (j : t.Idx) (hinit : init (Shape.Idx.first hu) = ⊥) :
    Host.reduce (FloatOps.maximumf (F := Ideal) (φ := .f32)) x init h' hu j
      = (Finset.univ : Finset (Fin (s.size a))).fold max ⊥ (fun k => x (h.lift j k)) := by
  rw [Host.reduce_eq_fold_single (FloatOps.maximumf (F := Ideal) (φ := .f32)) x init h' h hu j, hinit]
  rfl

end Cert.ReferenceIdeal.RefValue

end
-- ==== Proof.RefStages.lean ====
/-
  The reference's three dense stages read against the whole-array functions of Spec.lean, at the extended reals.

  * Its first `dot_general` is `Spec.proj1` of the two arguments.
  * Its second layer — the bias vector broadcast to every row, the sum, the maximum with a zero array, the second
    `dot_general` — is `Spec.layer2` of the first aggregate, the bias vector and the second weights.
  * Its log-softmax — the class bias broadcast and added, a maximum-reduce of each row from −∞, a further maximum with −∞
    (which changes nothing: −∞ is the bottom), the shift, the exponentials' row sum from 0, its logarithm, the last
    subtraction — is `Spec.logSoftmaxRows` of the second aggregate and the class bias.
-/
import proofs.«181830_j893353198188_1_alg».proof.Proof.RefRead
import proofs.«181830_j893353198188_1_alg».proof.Proof.Spec
import proofs.«181830_j893353198188_1_alg».proof.Proof.LibHostReduceMax
import Idealize.ShloMosaic.Lib.ValueIdx
import Idealize.ShloMosaic.PureOps.Ideal.Laws

set_option maxRecDepth 16384

noncomputable section

namespace Cert.ReferenceIdeal.Stages

open Cert.ReferenceIdeal Cert.ReferenceIdeal.Gen Cert.ReferenceIdeal.ReadP
open Idealize.ShloMosaic Idealize.ShloMosaic.ValueIdx

/-- The word of −∞ denotes the bottom of the extended reals. -/
theorem neg_inf_word : Ideal.ofBits .f32 0xFF800000#32 = (⊥ : EReal) := by simp [Ideal.ofBits, Ideal.ieee]

/-- The first `dot_general` is the first projection. -/
theorem proj_stage (x0 : (⟨S100000x512, .f32⟩ : BufTy).Contents (Elt Ideal)) (x1 : (⟨S512x16, .f32⟩ : BufTy).Contents (Elt Ideal)) :
    val_main_v30 (F := Ideal) x0 x1 = Spec.proj1 x0 x1 := by
  funext i
  rw [val_main_v30_apply]
  unfold Spec.proj1
  refine Finset.sum_congr rfl fun k _ => ?_
  have el : lidx_main_v30 i k = ix2 (i 0) k := funext fun a => match a with
    | ⟨0, _⟩ => rfl
    | ⟨1, _⟩ => rfl
  have er : ridx_main_v30 i k = ix2 k (i 1) := funext fun a => match a with
    | ⟨0, _⟩ => rfl
    | ⟨1, _⟩ => rfl
  exact congrArg₂ (· * ·) (congrArg x0 el) (congrArg x1 er)

/-- Bias, rectifier and the second `dot_general` are the second layer of the first aggregate. -/
theorem layer_stage (x0 : (⟨S100000x512, .f32⟩ : BufTy).Contents (Elt Ideal)) (x1 : (⟨S512x16, .f32⟩ : BufTy).Contents (Elt Ideal)) (x2 : (⟨S16, .f32⟩ : BufTy).Contents (Elt Ideal)) (x3 : (⟨S16x40, .f32⟩ : BufTy).Contents (Elt Ideal)) (x5 : (⟨S2x3200000, .i32⟩ : BufTy).Contents (Elt Ideal)) :
    val_main_v48 (F := Ideal) x0 x1 x2 x3 x5 = Spec.layer2 (val_main_v43 (F := Ideal) x0 x1 x5) x2 x3 := by
  funext i
  rw [val_main_v48_apply]
  unfold Spec.layer2 Spec.hidden
  refine Finset.sum_congr rfl fun k _ => ?_
  have el : lidx_main_v48 i k = ix2 (i 0) k := funext fun a => match a with
    | ⟨0, _⟩ => rfl
    | ⟨1, _⟩ => rfl
  have er : ridx_main_v48 i k = ix2 k (i 1) := funext fun a => match a with
    | ⟨0, _⟩ => rfl
    | ⟨1, _⟩ => rfl
  have eb : idx_main_v44 (idx_main_v45 (lidx_main_v48 i k)) = ix1 k := funext fun a => match a with
    | ⟨0, _⟩ => rfl
  refine congrArg₂ (· * ·) ?_ (congrArg x3 er)
  rw [val_main_v47_apply, val_main_v46_apply, val_main_v45_apply, val_main_v44_apply, val_main_call1_v0_apply,
    val_main_call1_cst_apply]
  show max (val_main_v43 (F := Ideal) x0 x1 x5 (lidx_main_v48 i k) + x2 (idx_main_v44 (idx_main_v45 (lidx_main_v48 i k))))
      (Ideal.ofBits .f32 0x00000000#32) = _
  rw [Ideal.ofBits_zero_f32, eb, el]
  rfl

section Softmax

variable (x0 : (⟨S100000x512, .f32⟩ : BufTy).Contents (Elt Ideal)) (x1 : (⟨S512x16, .f32⟩ : BufTy).Contents (Elt Ideal)) (x2 : (⟨S16, .f32⟩ : BufTy).Contents (Elt Ideal)) (x3 : (⟨S16x40, .f32⟩ : BufTy).Contents (Elt Ideal)) (x4 : (⟨S40, .f32⟩ : BufTy).Contents (Elt Ideal)) (x5 : (⟨S2x3200000, .i32⟩ : BufTy).Contents (Elt Ideal))

/-- The logits: the second aggregate plus the class bias broadcast to every row. -/
theorem logit_stage (p : Fin 100000) (k : Fin 40) :
    val_main_v64 (F := Ideal) x0 x1 x2 x3 x4 x5 (ix2 p k)
      = Spec.logit (val_main_v61 (F := Ideal) x0 x1 x2 x3 x5) x4 p k := by
  rw [val_main_v64_apply, val_main_v63_apply, val_main_v62_apply]
  have eb : idx_main_v62 (idx_main_v63 (ix2 p k)) = ix1 k := funext fun a => match a with
    | ⟨0, _⟩ => rfl
  show val_main_v61 (F := Ideal) x0 x1 x2 x3 x5 (ix2 p k) + x4 (idx_main_v62 (idx_main_v63 (ix2 p k))) = _
  rw [eb]
  rfl

/-- The row maximum the reference subtracts: the maximum-reduce of a row from −∞, then a maximum with −∞. -/
theorem rowmax_stage (p : Fin 100000) :
    val_main_call2_v2 (F := Ideal) x0 x1 x2 x3 x4 x5 (ix1 p)
      = Spec.rowMax (val_main_v61 (F := Ideal) x0 x1 x2 x3 x5) x4 p := by
  rw [val_main_call2_v2_apply, val_main_call2_v1_apply, val_main_call2_cst_0_apply]
  show max (Ideal.ofBits .f32 0xFF800000#32) (val_main_call2_v0 (F := Ideal) x0 x1 x2 x3 x4 x5 (ix1 p)) = _
  rw [neg_inf_word, max_bot_left]
  unfold val_main_call2_v0
  have hred : S100000x40.Reduces [1] S100000 := by decide
  rw [Cert.ReferenceIdeal.RefValue.hostReduce_max_single (val_main_v64 (F := Ideal) x0 x1 x2 x3 x4 x5)
    (val_main_call2_cst (F := Ideal)) reducesTo_S100000x40_S100000_d1 hred h_S_ (ix1 p) neg_inf_word]
  unfold Spec.rowMax
  refine congrArg (fun f : Fin 40 → EReal => (Finset.univ : Finset (Fin 40)).fold max ⊥ f) (funext fun k => ?_)
  have el : hred.lift (ix1 p) k = ix2 p k := funext fun a => match a with
    | ⟨0, _⟩ => rfl
    | ⟨1, _⟩ => rfl
  exact (congrArg (val_main_v64 (F := Ideal) x0 x1 x2 x3 x4 x5) el).trans (logit_stage x0 x1 x2 x3 x4 x5 p k)

/-- The shifted logits. -/
theorem shifted_stage (p : Fin 100000) (k : Fin 40) :
    val_main_call2_v5 (F := Ideal) x0 x1 x2 x3 x4 x5 (ix2 p k)
      = Spec.shifted (val_main_v61 (F := Ideal) x0 x1 x2 x3 x5) x4 p k := by
  rw [val_main_call2_v5_apply, val_main_call2_v4_apply, val_main_call2_v3_apply]
  have e3 : idx_main_call2_v3 (idx_main_call2_v4 (ix2 p k)) = ix1 p := funext fun a => match a with
    | ⟨0, _⟩ => rfl
  show val_main_v64 (F := Ideal) x0 x1 x2 x3 x4 x5 (ix2 p k)
      - val_main_call2_v2 (F := Ideal) x0 x1 x2 x3 x4 x5 (idx_main_call2_v3 (idx_main_call2_v4 (ix2 p k))) = _
  rw [e3, rowmax_stage, logit_stage]
  rfl

/-- The `log_softmax` call is the row-wise log-softmax of the second aggregate and the class bias. -/
theorem softmax_stage :
    val_main_v65 (F := Ideal) x0 x1 x2 x3 x4 x5
      = Spec.logSoftmaxRows (val_main_v61 (F := Ideal) x0 x1 x2 x3 x5) x4 := by
  funext i
  obtain ⟨p, q, rfl⟩ : ∃ (p : Fin 100000) (q : Fin 40), i = ix2 p q := ⟨i 0, i 1, eq_ix2 i⟩
  rw [val_main_v65_apply, val_main_call2_v10_apply, val_main_call2_v9_apply, val_main_call2_v8_apply,
    val_main_call2_v7_apply, shifted_stage, val_main_call2_cst_1_apply]
  unfold Spec.logSoftmaxRows
  rw [Ideal.subf_def, Ideal.hostUnary_log_def, Ideal.ofBits_def, Ideal.ofBits_zero_f32, zero_add]
  refine congrArg (fun r => Spec.shifted (val_main_v61 (F := Ideal) x0 x1 x2 x3 x5) x4 p q - Ideal.log r) ?_
  refine Finset.sum_congr rfl fun k _ => ?_
  have e7 : idx_main_call2_v7 (idx_main_call2_v8 (idx_main_call2_v10 (ix2 p q))) k = ix2 p k := funext fun a => match a with
    | ⟨0, _⟩ => rfl
    | ⟨1, _⟩ => rfl
  rw [e7, val_main_call2_v6_apply, shifted_stage, Ideal.hostUnary_exp_def]

end Softmax

end Cert.ReferenceIdeal.Stages

end
-- ==== Proof.KernelValue.lean ====
/-
  The value of the idealized kernel's result. Walking the boundaries of its eight segments from the launch memory: the three
  first stretches leave the edge lists and the per-edge coefficient; the first region leaves the first projection of x and
  W1; the next stretch the first aggregate; the second region the second layer of that aggregate, b1 and W2; the next
  stretch the second aggregate; the last region its row-wise log-softmax with b2. At each boundary the buffer holds the
  reference's stage value of the same arguments, so the result buffer ends at the reference's last stage value.
-/
import proofs.«181830_j893353198188_1_alg».proof.Proof.KernelRun
import proofs.«181830_j893353198188_1_alg».proof.Proof.KernelStages
import proofs.«181830_j893353198188_1_alg».proof.Proof.ProjRegion
import proofs.«181830_j893353198188_1_alg».proof.Proof.LayerRegion
import proofs.«181830_j893353198188_1_alg».proof.Proof.SoftmaxRegion
import proofs.«181830_j893353198188_1_alg».proof.Proof.RefStages

set_option maxRecDepth 16384

noncomputable section

namespace Cert.KernelIdeal.Bridge

open Cert.KernelIdeal Cert.KernelIdeal.Gen
open Idealize.ShloMosaic Idealize.ShloMosaic.TcCoe Idealize.ShloMosaic.StableHlo Idealize.ShloMosaic.ValueIdx Idealize.SL.Sem
open Cert.ReferenceIdeal.ReadP

variable (m : (ℓ : Loc nD τ sig) → Buf (Elt Ideal) ℓ) (ρ : Dev nD → PrngReg) (c : Dev nD)

/-! ## The arguments as launched -/

/-- Argument 0 as launched. -/
abbrev in0 : (⟨S100000x512, .f32⟩ : BufTy).Contents (Elt Ideal) := m ((c.tc : Thread nD τ).loc main_arg0)
/-- Argument 1 as launched. -/
abbrev in1 : (⟨S512x16, .f32⟩ : BufTy).Contents (Elt Ideal) := m ((c.tc : Thread nD τ).loc main_arg1)
/-- Argument 2 as launched. -/
abbrev in2 : (⟨S16, .f32⟩ : BufTy).Contents (Elt Ideal) := m ((c.tc : Thread nD τ).loc main_arg2)
/-- Argument 3 as launched. -/
abbrev in3 : (⟨S16x40, .f32⟩ : BufTy).Contents (Elt Ideal) := m ((c.tc : Thread nD τ).loc main_arg3)
/-- Argument 4 as launched. -/
abbrev in4 : (⟨S40, .f32⟩ : BufTy).Contents (Elt Ideal) := m ((c.tc : Thread nD τ).loc main_arg4)
/-- Argument 5 as launched. -/
abbrev in5 : (⟨S2x3200000, .i32⟩ : BufTy).Contents (Elt Ideal) := m ((c.tc : Thread nD τ).loc main_arg5)

/-! ## Before the first region -/

theorem w1_v3 : W1 m ρ c (Proc.devRef .tc main_v3) = val_main_v3 (F := Ideal) (in5 m c) :=
  edge_sources (W0 m ρ c) (in5 m c) rfl
theorem w1_v6 : W1 m ρ c (Proc.devRef .tc main_v6) = val_main_v6 (F := Ideal) (in5 m c) :=
  edge_targets (W0 m ρ c) (in5 m c) rfl
theorem w1_v12 : W1 m ρ c (Proc.devRef .tc main_v12) = val_main_v12 (F := Ideal) (in5 m c) :=
  degree_positive (W0 m ρ c) (in5 m c) rfl
theorem w1_v13 : W1 m ρ c (Proc.devRef .tc main_v13) = val_main_v13 (F := Ideal) (in5 m c) :=
  degree_rsqrt (W0 m ρ c) (in5 m c) rfl
theorem w1_cst2 : W1 m ρ c (Proc.devRef .tc main_cst_2) = val_main_cst_2 (F := Ideal) :=
  zero_scalar (W0 m ρ c)
theorem w1_arg0 : W1 m ρ c (Proc.devRef .tc main_arg0) = in0 m c :=
  keep_hostOps0_arg0 (W0 m ρ c)
theorem w1_arg1 : W1 m ρ c (Proc.devRef .tc main_arg1) = in1 m c :=
  keep_hostOps0_arg1 (W0 m ρ c)
theorem w1_arg2 : W1 m ρ c (Proc.devRef .tc main_arg2) = in2 m c :=
  keep_hostOps0_arg2 (W0 m ρ c)
theorem w1_arg3 : W1 m ρ c (Proc.devRef .tc main_arg3) = in3 m c :=
  keep_hostOps0_arg3 (W0 m ρ c)
theorem w1_arg4 : W1 m ρ c (Proc.devRef .tc main_arg4) = in4 m c :=
  keep_hostOps0_arg4 (W0 m ρ c)
theorem w2_v14 : W2 m ρ c (Proc.devRef .tc main_v14) = val_main_v14 (F := Ideal) (in5 m c) :=
  degree_scale (W1 m ρ c) (in5 m c) (w1_v12 m ρ c) (w1_v13 m ρ c) (w1_cst2 m ρ c)
theorem w2_v3 : W2 m ρ c (Proc.devRef .tc main_v3) = val_main_v3 (F := Ideal) (in5 m c) :=
  (keep_hostOps0_1_v3 (W1 m ρ c)).trans (w1_v3 m ρ c)
theorem w2_v6 : W2 m ρ c (Proc.devRef .tc main_v6) = val_main_v6 (F := Ideal) (in5 m c) :=
  (keep_hostOps0_1_v6 (W1 m ρ c)).trans (w1_v6 m ρ c)
theorem w2_arg0 : W2 m ρ c (Proc.devRef .tc main_arg0) = in0 m c :=
  (keep_hostOps0_1_arg0 (W1 m ρ c)).trans (w1_arg0 m ρ c)
theorem w2_arg1 : W2 m ρ c (Proc.devRef .tc main_arg1) = in1 m c :=
  (keep_hostOps0_1_arg1 (W1 m ρ c)).trans (w1_arg1 m ρ c)
theorem w2_arg2 : W2 m ρ c (Proc.devRef .tc main_arg2) = in2 m c :=
  (keep_hostOps0_1_arg2 (W1 m ρ c)).trans (w1_arg2 m ρ c)
theorem w2_arg3 : W2 m ρ c (Proc.devRef .tc main_arg3) = in3 m c :=
  (keep_hostOps0_1_arg3 (W1 m ρ c)).trans (w1_arg3 m ρ c)
theorem w2_arg4 : W2 m ρ c (Proc.devRef .tc main_arg4) = in4 m c :=
  (keep_hostOps0_1_arg4 (W1 m ρ c)).trans (w1_arg4 m ρ c)
theorem w3_v29 : W3 m ρ c (Proc.devRef .tc main_v29) = val_main_v29 (F := Ideal) (in5 m c) :=
  edge_coefficient (W2 m ρ c) (in5 m c) (w2_v14 m ρ c) (w2_v3 m ρ c) (w2_v6 m ρ c)
theorem w3_v3 : W3 m ρ c (Proc.devRef .tc main_v3) = val_main_v3 (F := Ideal) (in5 m c) :=
  (keep_hostOps0_2_v3 (W2 m ρ c)).trans (w2_v3 m ρ c)
theorem w3_v6 : W3 m ρ c (Proc.devRef .tc main_v6) = val_main_v6 (F := Ideal) (in5 m c) :=
  (keep_hostOps0_2_v6 (W2 m ρ c)).trans (w2_v6 m ρ c)
theorem w3_arg0 : W3 m ρ c (Proc.devRef .tc main_arg0) = in0 m c :=
  (keep_hostOps0_2_arg0 (W2 m ρ c)).trans (w2_arg0 m ρ c)
theorem w3_arg1 : W3 m ρ c (Proc.devRef .tc main_arg1) = in1 m c :=
  (keep_hostOps0_2_arg1 (W2 m ρ c)).trans (w2_arg1 m ρ c)
theorem w3_arg2 : W3 m ρ c (Proc.devRef .tc main_arg2) = in2 m c :=
  (keep_hostOps0_2_arg2 (W2 m ρ c)).trans (w2_arg2 m ρ c)
theorem w3_arg3 : W3 m ρ c (Proc.devRef .tc main_arg3) = in3 m c :=
  (keep_hostOps0_2_arg3 (W2 m ρ c)).trans (w2_arg3 m ρ c)
theorem w3_arg4 : W3 m ρ c (Proc.devRef .tc main_arg4) = in4 m c :=
  (keep_hostOps0_2_arg4 (W2 m ρ c)).trans (w2_arg4 m ρ c)

/-! ## After the first region: the first projection -/

theorem w4_v30 : W4 m ρ c (Proc.devRef .tc main_v30) = val_main_v30 (F := Ideal) (in0 m c) (in1 m c) := by
  refine (W4_arr m ρ c 2).trans ((proj_array (V3 m ρ) c).trans ?_)
  rw [show V3 m ρ c main_arg0 = in0 m c from w3_arg0 m ρ c, show V3 m ρ c main_arg1 = in1 m c from w3_arg1 m ρ c]
  exact (Cert.ReferenceIdeal.Stages.proj_stage (in0 m c) (in1 m c)).symm
theorem w4_v29 : W4 m ρ c (Proc.devRef .tc main_v29) = val_main_v29 (F := Ideal) (in5 m c) :=
  (W4_of_ne m ρ c main_v29 (by decide)).trans (w3_v29 m ρ c)
theorem w4_v3 : W4 m ρ c (Proc.devRef .tc main_v3) = val_main_v3 (F := Ideal) (in5 m c) :=
  (W4_of_ne m ρ c main_v3 (by decide)).trans (w3_v3 m ρ c)
theorem w4_v6 : W4 m ρ c (Proc.devRef .tc main_v6) = val_main_v6 (F := Ideal) (in5 m c) :=
  (W4_of_ne m ρ c main_v6 (by decide)).trans (w3_v6 m ρ c)
theorem w4_arg2 : W4 m ρ c (Proc.devRef .tc main_arg2) = in2 m c :=
  (W4_of_ne m ρ c main_arg2 (by decide)).trans (w3_arg2 m ρ c)
theorem w4_arg3 : W4 m ρ c (Proc.devRef .tc main_arg3) = in3 m c :=
  (W4_of_ne m ρ c main_arg3 (by decide)).trans (w3_arg3 m ρ c)
theorem w4_arg4 : W4 m ρ c (Proc.devRef .tc main_arg4) = in4 m c :=
  (W4_of_ne m ρ c main_arg4 (by decide)).trans (w3_arg4 m ρ c)

/-! ## Before the second region: the first aggregate and the bias row -/

theorem w5_v43 : W5 m ρ c (Proc.devRef .tc main_v43) = val_main_v43 (F := Ideal) (in0 m c) (in1 m c) (in5 m c) :=
  first_aggregate (W4 m ρ c) (in0 m c) (in1 m c) (in5 m c) (w4_v30 m ρ c) (w4_v29 m ρ c) (w4_v3 m ρ c) (w4_v6 m ρ c)
theorem w5_v44 (k : Fin 16) : W5 m ρ c (Proc.devRef .tc main_v44) (ix2 (0 : Fin 1) k) = in2 m c (ix1 k) :=
  bias1_row (W4 m ρ c) (in2 m c) (w4_arg2 m ρ c) k
theorem w5_v29 : W5 m ρ c (Proc.devRef .tc main_v29) = val_main_v29 (F := Ideal) (in5 m c) :=
  (keep_hostOps1_v29 (W4 m ρ c)).trans (w4_v29 m ρ c)
theorem w5_v3 : W5 m ρ c (Proc.devRef .tc main_v3) = val_main_v3 (F := Ideal) (in5 m c) :=
  (keep_hostOps1_v3 (W4 m ρ c)).trans (w4_v3 m ρ c)
theorem w5_v6 : W5 m ρ c (Proc.devRef .tc main_v6) = val_main_v6 (F := Ideal) (in5 m c) :=
  (keep_hostOps1_v6 (W4 m ρ c)).trans (w4_v6 m ρ c)
theorem w5_arg3 : W5 m ρ c (Proc.devRef .tc main_arg3) = in3 m c :=
  (keep_hostOps1_arg3 (W4 m ρ c)).trans (w4_arg3 m ρ c)
theorem w5_arg4 : W5 m ρ c (Proc.devRef .tc main_arg4) = in4 m c :=
  (keep_hostOps1_arg4 (W4 m ρ c)).trans (w4_arg4 m ρ c)

/-! ## After the second region: the second layer -/

theorem w6_v45 : W6 m ρ c (Proc.devRef .tc main_v45) = val_main_v48 (F := Ideal) (in0 m c) (in1 m c) (in2 m c) (in3 m c) (in5 m c) := by
  refine (W6_arr m ρ c 3).trans ((layer_array (V5 m ρ) c (in2 m c) (fun k => w5_v44 m ρ c k)).trans ?_)
  rw [show V5 m ρ c main_v43 = val_main_v43 (F := Ideal) (in0 m c) (in1 m c) (in5 m c) from w5_v43 m ρ c,
    show V5 m ρ c main_arg3 = in3 m c from w5_arg3 m ρ c]
  exact (Cert.ReferenceIdeal.Stages.layer_stage (in0 m c) (in1 m c) (in2 m c) (in3 m c) (in5 m c)).symm
theorem w6_v29 : W6 m ρ c (Proc.devRef .tc main_v29) = val_main_v29 (F := Ideal) (in5 m c) :=
  (W6_of_ne m ρ c main_v29 (by decide)).trans (w5_v29 m ρ c)
theorem w6_v3 : W6 m ρ c (Proc.devRef .tc main_v3) = val_main_v3 (F := Ideal) (in5 m c) :=
  (W6_of_ne m ρ c main_v3 (by decide)).trans (w5_v3 m ρ c)
theorem w6_v6 : W6 m ρ c (Proc.devRef .tc main_v6) = val_main_v6 (F := Ideal) (in5 m c) :=
  (W6_of_ne m ρ c main_v6 (by decide)).trans (w5_v6 m ρ c)
theorem w6_arg4 : W6 m ρ c (Proc.devRef .tc main_arg4) = in4 m c :=
  (W6_of_ne m ρ c main_arg4 (by decide)).trans (w5_arg4 m ρ c)

/-! ## Before the last region: the second aggregate and the class-bias row -/

theorem w7_v58 : W7 m ρ c (Proc.devRef .tc main_v58) = val_main_v61 (F := Ideal) (in0 m c) (in1 m c) (in2 m c) (in3 m c) (in5 m c) :=
  second_aggregate (W6 m ρ c) (in0 m c) (in1 m c) (in2 m c) (in3 m c) (in5 m c) (w6_v45 m ρ c) (w6_v29 m ρ c) (w6_v3 m ρ c) (w6_v6 m ρ c)
theorem w7_v59 (k : Fin 40) : W7 m ρ c (Proc.devRef .tc main_v59) (ix2 (0 : Fin 1) k) = in4 m c (ix1 k) :=
  bias2_row (W6 m ρ c) (in4 m c) (w6_arg4 m ρ c) k

/-! ## After the last region: the result -/

theorem w8_v60 : W8 m ρ c (Proc.devRef .tc main_v60)
    = val_main_v65 (F := Ideal) (in0 m c) (in1 m c) (in2 m c) (in3 m c) (in4 m c) (in5 m c) := by
  refine (W8_arr m ρ c 2).trans ((softmax_array (V7 m ρ) c (in4 m c) (fun k => w7_v59 m ρ c k)).trans ?_)
  rw [show V7 m ρ c main_v58 = val_main_v61 (F := Ideal) (in0 m c) (in1 m c) (in2 m c) (in3 m c) (in5 m c) from w7_v58 m ρ c]
  exact (Cert.ReferenceIdeal.Stages.softmax_stage (in0 m c) (in1 m c) (in2 m c) (in3 m c) (in4 m c) (in5 m c)).symm

/-- Every weakly fair execution of the idealized kernel terminates with its result at the reference's last stage value of the
    arguments as launched, and the arguments unchanged. -/
theorem kernel_value : θ_run defs (onTc (τ := τ) (main (F := Ideal))) ⟨m, fun _ => 0, ρ⟩ (fun r => ∀ c : Dev nD,
      r.2.mem ((c.tc : Thread nD τ).loc main_v60)
        = val_main_v65 (F := Ideal) (in0 m c) (in1 m c) (in2 m c) (in3 m c) (in4 m c) (in5 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (w8_v60 m ρ c), (h c).2⟩) (run_result m ρ)

end Cert.KernelIdeal.Bridge

end
-- ==== Proof.RefValue.lean ====
/-
  The reference's run, read one stretch of operations at a time. The reference is a straight line of 98 host operations; cut
  into ten stretches — the edge lists and the degree; the scale where the degree is positive; the per-edge coefficient; the
  first projection and its aggregation; bias, rectifier and the second projection; the second aggregation; the class bias; the
  row maximum; the shift; the exponentials' sum, its logarithm and the last subtraction — each stretch takes buffers holding
  stage values of the arguments to buffers holding the next stage values
  (the stage functions are the operations' own, so each step is the stretch's operations composed against a stage's definition
  unfolded). Chained from the launch memory the result buffer ends at the last stage value of the arguments.
-/
import proofs.«181830_j893353198188_1_alg».proof.Proof.RefRun
import proofs.«181830_j893353198188_1_alg».proof.Proof.RefRead
import Idealize.ShloMosaic.Lib.StableHlo.Run
import Idealize.ShloMosaic.Lib.Pipeline.Frame

set_option maxRecDepth 16384

noncomputable section

namespace Cert.ReferenceIdeal.Stages

open Cert.ReferenceIdeal Cert.ReferenceIdeal.Gen Cert.ReferenceIdeal.ReadP
open Idealize.ShloMosaic Idealize.ShloMosaic.TcCoe Idealize.ShloMosaic.StableHlo Idealize.SL.Sem

/-! ## The ten stretches -/

variable {F : FTy → Type} [FloatOps F]

/-- Operations 1 … 18 of the reference. -/
abbrev ops0 : List (HloOp τ sig (Elt F)) :=
  [ nullary main_v0 (iotaInDim S100000 32 0),
    unary main_arg5 main_v1 ((extractStridedSlice S1x3200000 ![0, 0] · slices_S2x3200000_S1x3200000_0_0) : (⟨S2x3200000, .i32⟩ : BufTy).Contents (Elt F) → (⟨S1x3200000, .i32⟩ : BufTy).Contents (Elt F)),
    reshape main_v1 main_v2 rfl shapeCasts_S1x3200000_S3200000,
    binary main_v2 main_v0 main_v3 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    unary main_arg5 main_v4 ((extractStridedSlice S1x3200000 ![1, 0] · slices_S2x3200000_S1x3200000_1_0) : (⟨S2x3200000, .i32⟩ : BufTy).Contents (Elt F) → (⟨S1x3200000, .i32⟩ : BufTy).Contents (Elt F)),
    reshape main_v4 main_v5 rfl shapeCasts_S1x3200000_S3200000,
    binary main_v5 main_v0 main_v6 ((fun a b => concatenate S3300000 0 [⟨S3200000, a⟩, ⟨S100000, b⟩] concatenates_S3200000_S100000_S3300000_d0) : (⟨S3200000, .i32⟩ : BufTy).Contents (Elt F) → (⟨S100000, .i32⟩ : BufTy).Contents (Elt F) → (⟨S3300000, .i32⟩ : BufTy).Contents (Elt F)),
    nullary main_cst (constant S_ .f32 0x3F800000#32),
    unary main_cst main_v7 (broadcastInDim S3300000 ![] bcast_S_S3300000 : (⟨S_, .f32⟩ : BufTy).Contents (Elt F) → (⟨S3300000, .f32⟩ : BufTy).Contents (Elt F)),
    nullary main_cst_0 (constant S_ .f32 0x00000000#32),
    unary main_cst_0 main_v8 (broadcastInDim S100000 ![] bcast_S_S100000 : (⟨S_, .f32⟩ : BufTy).Contents (Elt F) → (⟨S100000, .f32⟩ : BufTy).Contents (Elt F)),
    unary main_v6 main_v9 (broadcastInDim S3300000x1 ![0] bcast_S3300000_S3300000x1_0 : (⟨S3300000, .i32⟩ : BufTy).Contents (Elt F) → (⟨S3300000x1, .i32⟩ : BufTy).Contents (Elt F)),
    ternary main_v8 main_v9 main_v7 main_v10 ((fun x i u => Host.scatterAdd scatter_S100000_S3300000x1_S3300000_n_0_0_1 x i u) : (⟨S100000, .f32⟩ : BufTy).Contents (Elt F) → (⟨S3300000x1, .i32⟩ : BufTy).Contents (Elt F) → (⟨S3300000, .f32⟩ : BufTy).Contents (Elt F) → (⟨S100000, .f32⟩ : BufTy).Contents (Elt F)),
    nullary main_cst_1 (constant S_ .f32 0x00000000#32),
    unary main_cst_1 main_v11 (broadcastInDim S100000 ![] bcast_S_S100000 : (⟨S_, .f32⟩ : BufTy).Contents (Elt F) → (⟨S100000, .f32⟩ : BufTy).Contents (Elt F)),
    binary main_v10 main_v11 main_v12 (cmpf .ogt : (⟨S100000, .f32⟩ : BufTy).Contents (Elt F) → (⟨S100000, .f32⟩ : BufTy).Contents (Elt F) → (⟨S100000, .i1⟩ : BufTy).Contents (Elt F)),
    unary main_v10 main_v13 (Host.rsqrt : (⟨S100000, .f32⟩ : BufTy).Contents (Elt F) → (⟨S100000, .f32⟩ : BufTy).Contents (Elt F)),
    nullary main_cst_2 (constant S_ .f32 0x00000000#32) ]

/-- Operations 19 … 21 of the reference. -/
abbrev ops1 : List (HloOp τ sig (Elt F)) :=
  [ TRef.unary (TRef.of (T := ⟨S_, .f32⟩) main_cst_2) (TRef.of (T := ⟨S_, .f32⟩) main_call0_v0) id,
    TRef.unary (TRef.of (T := ⟨S_, .f32⟩) main_call0_v0) (TRef.of (T := ⟨S100000, .f32⟩) main_call0_v1) (broadcastInDim S100000 ![] bcast_S_S100000),
    TRef.ternary (TRef.of (T := ⟨S100000, .i1⟩) main_v12) (TRef.of (T := ⟨S100000, .f32⟩) main_v13) (TRef.of (T := ⟨S100000, .f32⟩) main_call0_v1) (TRef.of (T := ⟨S100000, .f32⟩) main_v14) select ]

/-- Operations 22 … 40 of the reference. -/
abbrev ops2 : List (HloOp τ sig (Elt F)) :=
  [ nullary main_c (constantI S_ 32 0#32),
    unary main_c main_v15 (broadcastInDim S3300000 ![] bcast_S_S3300000 : (⟨S_, .i32⟩ : BufTy).Contents (Elt F) → (⟨S3300000, .i32⟩ : BufTy).Contents (Elt F)),
    binary main_v3 main_v15 main_v16 (cmpi .slt : (⟨S3300000, .i32⟩ : BufTy).Contents (Elt F) → (⟨S3300000, .i32⟩ : BufTy).Contents (Elt F) → (⟨S3300000, .i1⟩ : BufTy).Contents (Elt F)),
    nullary main_c_3 (constantI S_ 32 100000#32),
    unary main_c_3 main_v17 (broadcastInDim S3300000 ![] bcast_S_S3300000 : (⟨S_, .i32⟩ : BufTy).Contents (Elt F) → (⟨S3300000, .i32⟩ : BufTy).Contents (Elt F)),
    binary main_v3 main_v17 main_v18 (addi : (⟨S3300000, .i32⟩ : BufTy).Contents (Elt F) → (⟨S3300000, .i32⟩ : BufTy).Contents (Elt F) → (⟨S3300000, .i32⟩ : BufTy).Contents (Elt F)),
    ternary main_v16 main_v18 main_v3 main_v19 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v19 main_v20 (broadcastInDim S3300000x1 ![0] bcast_S3300000_S3300000x1_0 : (⟨S3300000, .i32⟩ : BufTy).Contents (Elt F) → (⟨S3300000x1, .i32⟩ : BufTy).Contents (Elt F)),
    binary main_v14 main_v20 main_v21 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    nullary main_c_4 (constantI S_ 32 0#32),
    unary main_c_4 main_v22 (broadcastInDim S3300000 ![] bcast_S_S3300000 : (⟨S_, .i32⟩ : BufTy).Contents (Elt F) → (⟨S3300000, .i32⟩ : BufTy).Contents (Elt F)),
    binary main_v6 main_v22 main_v23 (cmpi .slt : (⟨S3300000, .i32⟩ : BufTy).Contents (Elt F) → (⟨S3300000, .i32⟩ : BufTy).Contents (Elt F) → (⟨S3300000, .i1⟩ : BufTy).Contents (Elt F)),
    nullary main_c_5 (constantI S_ 32 100000#32),
    unary main_c_5 main_v24 (broadcastInDim S3300000 ![] bcast_S_S3300000 : (⟨S_, .i32⟩ : BufTy).Contents (Elt F) → (⟨S3300000, .i32⟩ : BufTy).Contents (Elt F)),
    binary main_v6 main_v24 main_v25 (addi : (⟨S3300000, .i32⟩ : BufTy).Contents (Elt F) → (⟨S3300000, .i32⟩ : BufTy).Contents (Elt F) → (⟨S3300000, .i32⟩ : BufTy).Contents (Elt F)),
    ternary main_v23 main_v25 main_v6 main_v26 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v26 main_v27 (broadcastInDim S3300000x1 ![0] bcast_S3300000_S3300000x1_0 : (⟨S3300000, .i32⟩ : BufTy).Contents (Elt F) → (⟨S3300000x1, .i32⟩ : BufTy).Contents (Elt F)),
    binary main_v14 main_v27 main_v28 ((fun x i => Host.gather gather_S100000_S3300000x1_S3300000_n_0_n_n_0_1_1 x i) : (⟨S100000, .f32⟩ : BufTy).Contents (Elt F) → (⟨S3300000x1, .i32⟩ : BufTy).Contents (Elt F) → (⟨S3300000, .f32⟩ : BufTy).Contents (Elt F)),
    binary main_v21 main_v28 main_v29 (mulf : (⟨S3300000, .f32⟩ : BufTy).Contents (Elt F) → (⟨S3300000, .f32⟩ : BufTy).Contents (Elt F) → (⟨S3300000, .f32⟩ : BufTy).Contents (Elt F)) ]

/-- Operations 41 … 57 of the reference. -/
abbrev ops3 : List (HloOp τ sig (Elt F)) :=
  [ binary main_arg0 main_arg1 main_v30 ((fun l r => Host.dotGeneral dot_S100000x512_S512x16_S100000x16_1_0_0_1_n_n none l r) : (⟨S100000x512, .f32⟩ : BufTy).Contents (Elt F) → (⟨S512x16, .f32⟩ : BufTy).Contents (Elt F) → (⟨S100000x16, .f32⟩ : BufTy).Contents (Elt F)),
    unary main_v29 main_v31 (broadcastInDim S3300000x1 ![0] bcast_S3300000_S3300000x1_0 : (⟨S3300000, .f32⟩ : BufTy).Contents (Elt F) → (⟨S3300000x1, .f32⟩ : BufTy).Contents (Elt F)),
    nullary main_c_6 (constantI S_ 32 0#32),
    unary main_c_6 main_v32 (broadcastInDim S3300000 ![] bcast_S_S3300000 : (⟨S_, .i32⟩ : BufTy).Contents (Elt F) → (⟨S3300000, .i32⟩ : BufTy).Contents (Elt F)),
    binary main_v3 main_v32 main_v33 (cmpi .slt : (⟨S3300000, .i32⟩ : BufTy).Contents (Elt F) → (⟨S3300000, .i32⟩ : BufTy).Contents (Elt F) → (⟨S3300000, .i1⟩ : BufTy).Contents (Elt F)),
    nullary main_c_7 (constantI S_ 32 100000#32),
    unary main_c_7 main_v34 (broadcastInDim S3300000 ![] bcast_S_S3300000 : (⟨S_, .i32⟩ : BufTy).Contents (Elt F) → (⟨S3300000, .i32⟩ : BufTy).Contents (Elt F)),
    binary main_v3 main_v34 main_v35 (addi : (⟨S3300000, .i32⟩ : BufTy).Contents (Elt F) → (⟨S3300000, .i32⟩ : BufTy).Contents (Elt F) → (⟨S3300000, .i32⟩ : BufTy).Contents (Elt F)),
    ternary main_v33 main_v35 main_v3 main_v36 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v36 main_v37 (broadcastInDim S3300000x1 ![0] bcast_S3300000_S3300000x1_0 : (⟨S3300000, .i32⟩ : BufTy).Contents (Elt F) → (⟨S3300000x1, .i32⟩ : BufTy).Contents (Elt F)),
    binary main_v30 main_v37 main_v38 ((fun x i => Host.gather gather_S100000x16_S3300000x1_S3300000x16_1_0_n_n_0_1_116 x i) : (⟨S100000x16, .f32⟩ : BufTy).Contents (Elt F) → (⟨S3300000x1, .i32⟩ : BufTy).Contents (Elt F) → (⟨S3300000x16, .f32⟩ : BufTy).Contents (Elt F)),
    unary main_v31 main_v39 (broadcastInDim S3300000x16 ![0, 1] bcast_S3300000x1_S3300000x16_0_1 : (⟨S3300000x1, .f32⟩ : BufTy).Contents (Elt F) → (⟨S3300000x16, .f32⟩ : BufTy).Contents (Elt F)),
    binary main_v39 main_v38 main_v40 (mulf : (⟨S3300000x16, .f32⟩ : BufTy).Contents (Elt F) → (⟨S3300000x16, .f32⟩ : BufTy).Contents (Elt F) → (⟨S3300000x16, .f32⟩ : BufTy).Contents (Elt F)),
    nullary main_cst_8 (constant S_ .f32 0x00000000#32),
    unary main_cst_8 main_v41 (broadcastInDim S100000x16 ![] bcast_S_S100000x16 : (⟨S_, .f32⟩ : BufTy).Contents (Elt F) → (⟨S100000x16, .f32⟩ : BufTy).Contents (Elt F)),
    unary main_v6 main_v42 (broadcastInDim S3300000x1 ![0] bcast_S3300000_S3300000x1_0 : (⟨S3300000, .i32⟩ : BufTy).Contents (Elt F) → (⟨S3300000x1, .i32⟩ : BufTy).Contents (Elt F)),
    ternary main_v41 main_v42 main_v40 main_v43 ((fun x i u => Host.scatterAdd scatter_S100000x16_S3300000x1_S3300000x16_1_0_0_1 x i u) : (⟨S100000x16, .f32⟩ : BufTy).Contents (Elt F) → (⟨S3300000x1, .i32⟩ : BufTy).Contents (Elt F) → (⟨S3300000x16, .f32⟩ : BufTy).Contents (Elt F) → (⟨S100000x16, .f32⟩ : BufTy).Contents (Elt F)) ]

/-- Operations 58 … 64 of the reference. -/
abbrev ops4 : List (HloOp τ sig (Elt F)) :=
  [ unary main_arg2 main_v44 (broadcastInDim S1x16 ![1] bcast_S16_S1x16_1 : (⟨S16, .f32⟩ : BufTy).Contents (Elt F) → (⟨S1x16, .f32⟩ : BufTy).Contents (Elt F)),
    unary main_v44 main_v45 (broadcastInDim S100000x16 ![0, 1] bcast_S1x16_S100000x16_0_1 : (⟨S1x16, .f32⟩ : BufTy).Contents (Elt F) → (⟨S100000x16, .f32⟩ : BufTy).Contents (Elt F)),
    binary main_v43 main_v45 main_v46 (addf : (⟨S100000x16, .f32⟩ : BufTy).Contents (Elt F) → (⟨S100000x16, .f32⟩ : BufTy).Contents (Elt F) → (⟨S100000x16, .f32⟩ : BufTy).Contents (Elt F)),
    TRef.nullary (TRef.of (T := ⟨S_, .f32⟩) main_call1_cst) (constant S_ .f32 0x00000000#32),
    TRef.unary (TRef.of (T := ⟨S_, .f32⟩) main_call1_cst) (TRef.of (T := ⟨S100000x16, .f32⟩) main_call1_v0) (broadcastInDim S100000x16 ![] bcast_S_S100000x16),
    TRef.binary (TRef.of (T := ⟨S100000x16, .f32⟩) main_v46) (TRef.of (T := ⟨S100000x16, .f32⟩) main_call1_v0) (TRef.of (T := ⟨S100000x16, .f32⟩) main_v47) maximumf,
    binary main_v47 main_arg3 main_v48 ((fun l r => Host.dotGeneral dot_S100000x16_S16x40_S100000x40_1_0_0_1_n_n none l r) : (⟨S100000x16, .f32⟩ : BufTy).Contents (Elt F) → (⟨S16x40, .f32⟩ : BufTy).Contents (Elt F) → (⟨S100000x40, .f32⟩ : BufTy).Contents (Elt F)) ]

/-- Operations 65 … 80 of the reference. -/
abbrev ops5 : List (HloOp τ sig (Elt F)) :=
  [ unary main_v29 main_v49 (broadcastInDim S3300000x1 ![0] bcast_S3300000_S3300000x1_0 : (⟨S3300000, .f32⟩ : BufTy).Contents (Elt F) → (⟨S3300000x1, .f32⟩ : BufTy).Contents (Elt F)),
    nullary main_c_9 (constantI S_ 32 0#32),
    unary main_c_9 main_v50 (broadcastInDim S3300000 ![] bcast_S_S3300000 : (⟨S_, .i32⟩ : BufTy).Contents (Elt F) → (⟨S3300000, .i32⟩ : BufTy).Contents (Elt F)),
    binary main_v3 main_v50 main_v51 (cmpi .slt : (⟨S3300000, .i32⟩ : BufTy).Contents (Elt F) → (⟨S3300000, .i32⟩ : BufTy).Contents (Elt F) → (⟨S3300000, .i1⟩ : BufTy).Contents (Elt F)),
    nullary main_c_10 (constantI S_ 32 100000#32),
    unary main_c_10 main_v52 (broadcastInDim S3300000 ![] bcast_S_S3300000 : (⟨S_, .i32⟩ : BufTy).Contents (Elt F) → (⟨S3300000, .i32⟩ : BufTy).Contents (Elt F)),
    binary main_v3 main_v52 main_v53 (addi : (⟨S3300000, .i32⟩ : BufTy).Contents (Elt F) → (⟨S3300000, .i32⟩ : BufTy).Contents (Elt F) → (⟨S3300000, .i32⟩ : BufTy).Contents (Elt F)),
    ternary main_v51 main_v53 main_v3 main_v54 (select : (⟨S3300000, .i1⟩ : BufTy).Contents (Elt F) → (⟨S3300000, .i32⟩ : BufTy).Contents (Elt F) → (⟨S3300000, .i32⟩ : BufTy).Contents (Elt F) → (⟨S3300000, .i32⟩ : BufTy).Contents (Elt F)),
    unary main_v54 main_v55 (broadcastInDim S3300000x1 ![0] bcast_S3300000_S3300000x1_0 : (⟨S3300000, .i32⟩ : BufTy).Contents (Elt F) → (⟨S3300000x1, .i32⟩ : BufTy).Contents (Elt F)),
    binary main_v48 main_v55 main_v56 ((fun x i => Host.gather gather_S100000x40_S3300000x1_S3300000x40_1_0_n_n_0_1_140 x i) : (⟨S100000x40, .f32⟩ : BufTy).Contents (Elt F) → (⟨S3300000x1, .i32⟩ : BufTy).Contents (Elt F) → (⟨S3300000x40, .f32⟩ : BufTy).Contents (Elt F)),
    unary main_v49 main_v57 (broadcastInDim S3300000x40 ![0, 1] bcast_S3300000x1_S3300000x40_0_1 : (⟨S3300000x1, .f32⟩ : BufTy).Contents (Elt F) → (⟨S3300000x40, .f32⟩ : BufTy).Contents (Elt F)),
    binary main_v57 main_v56 main_v58 (mulf : (⟨S3300000x40, .f32⟩ : BufTy).Contents (Elt F) → (⟨S3300000x40, .f32⟩ : BufTy).Contents (Elt F) → (⟨S3300000x40, .f32⟩ : BufTy).Contents (Elt F)),
    nullary main_cst_11 (constant S_ .f32 0x00000000#32),
    unary main_cst_11 main_v59 (broadcastInDim S100000x40 ![] bcast_S_S100000x40 : (⟨S_, .f32⟩ : BufTy).Contents (Elt F) → (⟨S100000x40, .f32⟩ : BufTy).Contents (Elt F)),
    unary main_v6 main_v60 (broadcastInDim S3300000x1 ![0] bcast_S3300000_S3300000x1_0 : (⟨S3300000, .i32⟩ : BufTy).Contents (Elt F) → (⟨S3300000x1, .i32⟩ : BufTy).Contents (Elt F)),
    ternary main_v59 main_v60 main_v58 main_v61 ((fun x i u => Host.scatterAdd scatter_S100000x40_S3300000x1_S3300000x40_1_0_0_1 x i u) : (⟨S100000x40, .f32⟩ : BufTy).Contents (Elt F) → (⟨S3300000x1, .i32⟩ : BufTy).Contents (Elt F) → (⟨S3300000x40, .f32⟩ : BufTy).Contents (Elt F) → (⟨S100000x40, .f32⟩ : BufTy).Contents (Elt F)) ]

/-- Operations 81 … 83 of the reference. -/
abbrev ops6 : List (HloOp τ sig (Elt F)) :=
  [ unary main_arg4 main_v62 (broadcastInDim S1x40 ![1] bcast_S40_S1x40_1 : (⟨S40, .f32⟩ : BufTy).Contents (Elt F) → (⟨S1x40, .f32⟩ : BufTy).Contents (Elt F)),
    unary main_v62 main_v63 (broadcastInDim S100000x40 ![0, 1] bcast_S1x40_S100000x40_0_1 : (⟨S1x40, .f32⟩ : BufTy).Contents (Elt F) → (⟨S100000x40, .f32⟩ : BufTy).Contents (Elt F)),
    binary main_v61 main_v63 main_v64 (addf : (⟨S100000x40, .f32⟩ : BufTy).Contents (Elt F) → (⟨S100000x40, .f32⟩ : BufTy).Contents (Elt F) → (⟨S100000x40, .f32⟩ : BufTy).Contents (Elt F)) ]

/-- Operations 84 … 88 of the reference. -/
abbrev ops7 : List (HloOp τ sig (Elt F)) :=
  [ TRef.nullary (TRef.of (T := ⟨S_, .f32⟩) main_call2_cst) (constant S_ .f32 0xFF800000#32),
    TRef.binary (TRef.of (T := ⟨S100000x40, .f32⟩) main_v64) (TRef.of (T := ⟨S_, .f32⟩) main_call2_cst) (TRef.of (T := ⟨S100000, .f32⟩) main_call2_v0) (fun x v => Host.reduce FloatOps.maximumf x v reducesTo_S100000x40_S100000_d1 h_S_),
    TRef.nullary (TRef.of (T := ⟨S_, .f32⟩) main_call2_cst_0) (constant S_ .f32 0xFF800000#32),
    TRef.unary (TRef.of (T := ⟨S_, .f32⟩) main_call2_cst_0) (TRef.of (T := ⟨S100000, .f32⟩) main_call2_v1) (broadcastInDim S100000 ![] bcast_S_S100000),
    TRef.binary (TRef.of (T := ⟨S100000, .f32⟩) main_call2_v1) (TRef.of (T := ⟨S100000, .f32⟩) main_call2_v0) (TRef.of (T := ⟨S100000, .f32⟩) main_call2_v2) maximumf ]

/-- Operations 89 … 91 of the reference. -/
abbrev ops8 : List (HloOp τ sig (Elt F)) :=
  [ TRef.unary (TRef.of (T := ⟨S100000, .f32⟩) main_call2_v2) (TRef.of (T := ⟨S100000x1, .f32⟩) main_call2_v3) (broadcastInDim S100000x1 ![0] bcast_S100000_S100000x1_0),
    TRef.unary (TRef.of (T := ⟨S100000x1, .f32⟩) main_call2_v3) (TRef.of (T := ⟨S100000x40, .f32⟩) main_call2_v4) (broadcastInDim S100000x40 ![0, 1] bcast_S100000x1_S100000x40_0_1),
    TRef.binary (TRef.of (T := ⟨S100000x40, .f32⟩) main_v64) (TRef.of (T := ⟨S100000x40, .f32⟩) main_call2_v4) (TRef.of (T := ⟨S100000x40, .f32⟩) main_call2_v5) subf ]

/-- Operations 92 … 98 of the reference. -/
abbrev ops9 : List (HloOp τ sig (Elt F)) :=
  [ TRef.unary (TRef.of (T := ⟨S100000x40, .f32⟩) main_call2_v5) (TRef.of (T := ⟨S100000x40, .f32⟩) main_call2_v6) Host.exp,
    TRef.nullary (TRef.of (T := ⟨S_, .f32⟩) main_call2_cst_1) (constant S_ .f32 0x00000000#32),
    TRef.binary (TRef.of (T := ⟨S100000x40, .f32⟩) main_call2_v6) (TRef.of (T := ⟨S_, .f32⟩) main_call2_cst_1) (TRef.of (T := ⟨S100000, .f32⟩) main_call2_v7) (fun x v => Host.reduceAdd x v reducesTo_S100000x40_S100000_d1 h_S_),
    TRef.unary (TRef.of (T := ⟨S100000, .f32⟩) main_call2_v7) (TRef.of (T := ⟨S100000x1, .f32⟩) main_call2_v8) (broadcastInDim S100000x1 ![0] bcast_S100000_S100000x1_0),
    TRef.unary (TRef.of (T := ⟨S100000x1, .f32⟩) main_call2_v8) (TRef.of (T := ⟨S100000x1, .f32⟩) main_call2_v9) Host.log,
    TRef.unary (TRef.of (T := ⟨S100000x1, .f32⟩) main_call2_v9) (TRef.of (T := ⟨S100000x40, .f32⟩) main_call2_v10) (broadcastInDim S100000x40 ![0, 1] bcast_S100000x1_S100000x40_0_1),
    TRef.binary (TRef.of (T := ⟨S100000x40, .f32⟩) main_call2_v5) (TRef.of (T := ⟨S100000x40, .f32⟩) main_call2_v10) (TRef.of (T := ⟨S100000x40, .f32⟩) main_v65) subf ]

set_option maxRecDepth 65536 in
/-- The reference's operations are the ten stretches in order. -/
theorem ops_split : (Cert.ReferenceIdeal.ValueP.ops (F := F))
    = ops0 ++ (ops1 ++ (ops2 ++ (ops3 ++ (ops4 ++ (ops5 ++ (ops6 ++ (ops7 ++ (ops8 ++ ops9)))))))) := rfl

variable (V : Valuation τ sig (Elt Ideal))

/-! ## Stretch 1: the edge lists, the degree, its comparison with zero and its inverse square root -/

theorem r0_v3 (x5 : (⟨S2x3200000, .i32⟩ : BufTy).Contents (Elt Ideal)) (h5 : V (Proc.devRef .tc main_arg5) = x5) : after (ops0 (F := Ideal)) V (Proc.devRef .tc main_v3) = val_main_v3 (F := Ideal) x5 := by
  dsimp only [ops0]
  after_results
  rw [h5]
  rfl

theorem r0_v6 (x5 : (⟨S2x3200000, .i32⟩ : BufTy).Contents (Elt Ideal)) (h5 : V (Proc.devRef .tc main_arg5) = x5) : after (ops0 (F := Ideal)) V (Proc.devRef .tc main_v6) = val_main_v6 (F := Ideal) x5 := by
  dsimp only [ops0]
  after_results
  rw [h5]
  rfl

theorem r0_v12 (x5 : (⟨S2x3200000, .i32⟩ : BufTy).Contents (Elt Ideal)) (h5 : V (Proc.devRef .tc main_arg5) = x5) : after (ops0 (F := Ideal)) V (Proc.devRef .tc main_v12) = val_main_v12 (F := Ideal) x5 := by
  dsimp only [ops0]
  after_results
  rw [h5]
  rfl

theorem r0_v13 (x5 : (⟨S2x3200000, .i32⟩ : BufTy).Contents (Elt Ideal)) (h5 : V (Proc.devRef .tc main_arg5) = x5) : after (ops0 (F := Ideal)) V (Proc.devRef .tc main_v13) = val_main_v13 (F := Ideal) x5 := by
  dsimp only [ops0]
  after_results
  rw [h5]
  rfl

theorem r0_cst2 : after (ops0 (F := Ideal)) V (Proc.devRef .tc main_cst_2) = val_main_cst_2 (F := Ideal) := by
  dsimp only [ops0]
  after_results
  rfl

/-! ## Stretch 2: the inverse square root where the degree is positive, zero elsewhere -/

theorem r1_v14 (x5 : (⟨S2x3200000, .i32⟩ : BufTy).Contents (Elt Ideal))
    (h12 : V (Proc.devRef .tc main_v12) = val_main_v12 (F := Ideal) x5)
    (h13 : V (Proc.devRef .tc main_v13) = val_main_v13 (F := Ideal) x5)
    (hc : V (Proc.devRef .tc main_cst_2) = val_main_cst_2 (F := Ideal)) :
    after (ops1 (F := Ideal)) V (Proc.devRef .tc main_v14) = val_main_v14 (F := Ideal) x5 := by
  dsimp only [ops1]
  after_results
  unfold val_main_v14 val_main_call0_v1 val_main_call0_v0
  rw [← h12, ← h13, ← hc]
  rfl

/-! ## Stretch 3: the per-edge coefficient -/

theorem r2_v29 (x5 : (⟨S2x3200000, .i32⟩ : BufTy).Contents (Elt Ideal))
    (h14 : V (Proc.devRef .tc main_v14) = val_main_v14 (F := Ideal) x5)
    (h3 : V (Proc.devRef .tc main_v3) = val_main_v3 (F := Ideal) x5)
    (h6 : V (Proc.devRef .tc main_v6) = val_main_v6 (F := Ideal) x5) :
    after (ops2 (F := Ideal)) V (Proc.devRef .tc main_v29) = val_main_v29 (F := Ideal) x5 := by
  dsimp only [ops2]
  after_results_simp
  unfold val_main_v29 val_main_v28 val_main_v27 val_main_v26 val_main_v25 val_main_v24 val_main_c_5 val_main_v23 val_main_v22 val_main_c_4 val_main_v21 val_main_v20 val_main_v19 val_main_v18 val_main_v17 val_main_c_3 val_main_v16 val_main_v15 val_main_c
  rw [← h14, ← h3, ← h6]

/-! ## Stretch 4: the first projection and its aggregation -/

theorem r3_v43 (x0 : (⟨S100000x512, .f32⟩ : BufTy).Contents (Elt Ideal)) (x1 : (⟨S512x16, .f32⟩ : BufTy).Contents (Elt Ideal)) (x5 : (⟨S2x3200000, .i32⟩ : BufTy).Contents (Elt Ideal))
    (h0 : V (Proc.devRef .tc main_arg0) = x0) (h1 : V (Proc.devRef .tc main_arg1) = x1)
    (h29 : V (Proc.devRef .tc main_v29) = val_main_v29 (F := Ideal) x5)
    (h3 : V (Proc.devRef .tc main_v3) = val_main_v3 (F := Ideal) x5)
    (h6 : V (Proc.devRef .tc main_v6) = val_main_v6 (F := Ideal) x5) :
    after (ops3 (F := Ideal)) V (Proc.devRef .tc main_v43) = val_main_v43 (F := Ideal) x0 x1 x5 := by
  subst h0 h1
  dsimp only [ops3]
  after_results_simp
  unfold val_main_v43 val_main_v42 val_main_v41 val_main_cst_8 val_main_v40 val_main_v39 val_main_v38 val_main_v37 val_main_v36 val_main_v35 val_main_v34 val_main_c_7 val_main_v33 val_main_v32 val_main_c_6 val_main_v31 val_main_v30
  rw [← h29, ← h3, ← h6]

/-! ## Stretch 5: bias, rectifier and the second projection -/

theorem r4_v48 (x0 : (⟨S100000x512, .f32⟩ : BufTy).Contents (Elt Ideal)) (x1 : (⟨S512x16, .f32⟩ : BufTy).Contents (Elt Ideal)) (x2 : (⟨S16, .f32⟩ : BufTy).Contents (Elt Ideal)) (x3 : (⟨S16x40, .f32⟩ : BufTy).Contents (Elt Ideal)) (x5 : (⟨S2x3200000, .i32⟩ : BufTy).Contents (Elt Ideal))
    (h43 : V (Proc.devRef .tc main_v43) = val_main_v43 (F := Ideal) x0 x1 x5)
    (h2 : V (Proc.devRef .tc main_arg2) = x2) (h3' : V (Proc.devRef .tc main_arg3) = x3) :
    after (ops4 (F := Ideal)) V (Proc.devRef .tc main_v48) = val_main_v48 (F := Ideal) x0 x1 x2 x3 x5 := by
  subst h2 h3'
  dsimp only [ops4]
  after_results_simp
  unfold val_main_v48 val_main_v47 val_main_call1_v0 val_main_call1_cst val_main_v46 val_main_v45 val_main_v44
  rw [← h43]
  rfl

/-! ## Stretch 6: the second aggregation -/

theorem r5_v61 (x0 : (⟨S100000x512, .f32⟩ : BufTy).Contents (Elt Ideal)) (x1 : (⟨S512x16, .f32⟩ : BufTy).Contents (Elt Ideal)) (x2 : (⟨S16, .f32⟩ : BufTy).Contents (Elt Ideal)) (x3 : (⟨S16x40, .f32⟩ : BufTy).Contents (Elt Ideal)) (x5 : (⟨S2x3200000, .i32⟩ : BufTy).Contents (Elt Ideal))
    (h48 : V (Proc.devRef .tc main_v48) = val_main_v48 (F := Ideal) x0 x1 x2 x3 x5)
    (h29 : V (Proc.devRef .tc main_v29) = val_main_v29 (F := Ideal) x5)
    (h3 : V (Proc.devRef .tc main_v3) = val_main_v3 (F := Ideal) x5)
    (h6 : V (Proc.devRef .tc main_v6) = val_main_v6 (F := Ideal) x5) :
    after (ops5 (F := Ideal)) V (Proc.devRef .tc main_v61) = val_main_v61 (F := Ideal) x0 x1 x2 x3 x5 := by
  dsimp only [ops5]
  after_results_simp
  unfold val_main_v61 val_main_v60 val_main_v59 val_main_cst_11 val_main_v58 val_main_v57 val_main_v56 val_main_v55 val_main_v54 val_main_v53 val_main_v52 val_main_c_10 val_main_v51 val_main_v50 val_main_c_9 val_main_v49
  rw [← h48, ← h29, ← h3, ← h6]

/-! ## Stretch 7: the class bias added to the second aggregate -/

theorem r6_v64 (x0 : (⟨S100000x512, .f32⟩ : BufTy).Contents (Elt Ideal)) (x1 : (⟨S512x16, .f32⟩ : BufTy).Contents (Elt Ideal)) (x2 : (⟨S16, .f32⟩ : BufTy).Contents (Elt Ideal)) (x3 : (⟨S16x40, .f32⟩ : BufTy).Contents (Elt Ideal)) (x4 : (⟨S40, .f32⟩ : BufTy).Contents (Elt Ideal)) (x5 : (⟨S2x3200000, .i32⟩ : BufTy).Contents (Elt Ideal))
    (h61 : V (Proc.devRef .tc main_v61) = val_main_v61 (F := Ideal) x0 x1 x2 x3 x5)
    (h4 : V (Proc.devRef .tc main_arg4) = x4) :
    after (ops6 (F := Ideal)) V (Proc.devRef .tc main_v64) = val_main_v64 (F := Ideal) x0 x1 x2 x3 x4 x5 := by
  subst h4
  dsimp only [ops6]
  after_results_simp
  unfold val_main_v64 val_main_v63 val_main_v62
  rw [← h61]

/-! ## Stretch 8: the row maximum, a maximum-reduce from −∞ and a further maximum with −∞ -/

/-- The stretch with ANY function `g` of the logits and the initial value in the place of the maximum-reduce: the operations
    composed. (The reduction itself is a fold over every index of its operand and is never opened: it enters below as `g`.) -/
theorem r7_generic (W : Valuation τ sig (Elt F))
    (g : (⟨S100000x40, .f32⟩ : BufTy).Contents (Elt F) → (⟨S_, .f32⟩ : BufTy).Contents (Elt F)
      → (⟨S100000, .f32⟩ : BufTy).Contents (Elt F))
    (a : (⟨S100000x40, .f32⟩ : BufTy).Contents (Elt F)) (h64 : W (Proc.devRef .tc main_v64) = a) :
    after ([ TRef.nullary (TRef.of (T := ⟨S_, .f32⟩) main_call2_cst) (constant S_ .f32 0xFF800000#32),
      TRef.binary (TRef.of (T := ⟨S100000x40, .f32⟩) main_v64) (TRef.of (T := ⟨S_, .f32⟩) main_call2_cst) (TRef.of (T := ⟨S100000, .f32⟩) main_call2_v0) g,
      TRef.nullary (TRef.of (T := ⟨S_, .f32⟩) main_call2_cst_0) (constant S_ .f32 0xFF800000#32),
      TRef.unary (TRef.of (T := ⟨S_, .f32⟩) main_call2_cst_0) (TRef.of (T := ⟨S100000, .f32⟩) main_call2_v1) (broadcastInDim S100000 ![] bcast_S_S100000),
      TRef.binary (TRef.of (T := ⟨S100000, .f32⟩) main_call2_v1) (TRef.of (T := ⟨S100000, .f32⟩) main_call2_v0) (TRef.of (T := ⟨S100000, .f32⟩) main_call2_v2) maximumf ] : List (HloOp τ sig (Elt F))) W (Proc.devRef .tc main_call2_v2)
      = maximumf (broadcastInDim S100000 ![] bcast_S_S100000 (constant (F := F) S_ .f32 0xFF800000#32))
          (g a (constant (F := F) S_ .f32 0xFF800000#32)) := by
  subst h64
  after_results_simp
  rfl

theorem r7_rowmax (x0 : (⟨S100000x512, .f32⟩ : BufTy).Contents (Elt Ideal)) (x1 : (⟨S512x16, .f32⟩ : BufTy).Contents (Elt Ideal)) (x2 : (⟨S16, .f32⟩ : BufTy).Contents (Elt Ideal)) (x3 : (⟨S16x40, .f32⟩ : BufTy).Contents (Elt Ideal)) (x4 : (⟨S40, .f32⟩ : BufTy).Contents (Elt Ideal)) (x5 : (⟨S2x3200000, .i32⟩ : BufTy).Contents (Elt Ideal))
    (h64 : V (Proc.devRef .tc main_v64) = val_main_v64 (F := Ideal) x0 x1 x2 x3 x4 x5) :
    after (ops7 (F := Ideal)) V (Proc.devRef .tc main_call2_v2) = val_main_call2_v2 (F := Ideal) x0 x1 x2 x3 x4 x5 := by
  dsimp only [ops7]
  refine (r7_generic (F := Ideal) V _ _ h64).trans ?_
  unfold val_main_call2_v2 val_main_call2_v1 val_main_call2_cst_0 val_main_call2_v0 val_main_call2_cst
  rfl

/-! ## Stretch 9: the logits shifted by the row maximum -/

theorem r8_shifted (x0 : (⟨S100000x512, .f32⟩ : BufTy).Contents (Elt Ideal)) (x1 : (⟨S512x16, .f32⟩ : BufTy).Contents (Elt Ideal)) (x2 : (⟨S16, .f32⟩ : BufTy).Contents (Elt Ideal)) (x3 : (⟨S16x40, .f32⟩ : BufTy).Contents (Elt Ideal)) (x4 : (⟨S40, .f32⟩ : BufTy).Contents (Elt Ideal)) (x5 : (⟨S2x3200000, .i32⟩ : BufTy).Contents (Elt Ideal))
    (h64 : V (Proc.devRef .tc main_v64) = val_main_v64 (F := Ideal) x0 x1 x2 x3 x4 x5)
    (hm : V (Proc.devRef .tc main_call2_v2) = val_main_call2_v2 (F := Ideal) x0 x1 x2 x3 x4 x5) :
    after (ops8 (F := Ideal)) V (Proc.devRef .tc main_call2_v5) = val_main_call2_v5 (F := Ideal) x0 x1 x2 x3 x4 x5 := by
  dsimp only [ops8]
  after_results_simp
  unfold val_main_call2_v5 val_main_call2_v4 val_main_call2_v3
  rw [← h64, ← hm]
  rfl

/-! ## Stretch 10: the exponentials, their row sum, its logarithm and the last subtraction -/

theorem r9_v65 (x0 : (⟨S100000x512, .f32⟩ : BufTy).Contents (Elt Ideal)) (x1 : (⟨S512x16, .f32⟩ : BufTy).Contents (Elt Ideal)) (x2 : (⟨S16, .f32⟩ : BufTy).Contents (Elt Ideal)) (x3 : (⟨S16x40, .f32⟩ : BufTy).Contents (Elt Ideal)) (x4 : (⟨S40, .f32⟩ : BufTy).Contents (Elt Ideal)) (x5 : (⟨S2x3200000, .i32⟩ : BufTy).Contents (Elt Ideal))
    (hs : V (Proc.devRef .tc main_call2_v5) = val_main_call2_v5 (F := Ideal) x0 x1 x2 x3 x4 x5) :
    after (ops9 (F := Ideal)) V (Proc.devRef .tc main_v65) = val_main_v65 (F := Ideal) x0 x1 x2 x3 x4 x5 := by
  dsimp only [ops9]
  after_results_simp
  unfold val_main_v65 val_main_call2_v10 val_main_call2_v9 val_main_call2_v8 val_main_call2_v7 val_main_call2_cst_1 val_main_call2_v6
  rw [← hs]
  rfl

/-! ## What each stretch leaves as it was -/

theorem keep0_arg0 : after (ops0 (F := Ideal)) V (Proc.devRef .tc main_arg0) = V (Proc.devRef .tc main_arg0) := by
  dsimp only [ops0]
  after_results
theorem keep0_arg1 : after (ops0 (F := Ideal)) V (Proc.devRef .tc main_arg1) = V (Proc.devRef .tc main_arg1) := by
  dsimp only [ops0]
  after_results
theorem keep0_arg2 : after (ops0 (F := Ideal)) V (Proc.devRef .tc main_arg2) = V (Proc.devRef .tc main_arg2) := by
  dsimp only [ops0]
  after_results
theorem keep0_arg3 : after (ops0 (F := Ideal)) V (Proc.devRef .tc main_arg3) = V (Proc.devRef .tc main_arg3) := by
  dsimp only [ops0]
  after_results
theorem keep0_arg4 : after (ops0 (F := Ideal)) V (Proc.devRef .tc main_arg4) = V (Proc.devRef .tc main_arg4) := by
  dsimp only [ops0]
  after_results
theorem keep1_v3 : after (ops1 (F := Ideal)) V (Proc.devRef .tc main_v3) = V (Proc.devRef .tc main_v3) := by
  dsimp only [ops1]
  after_results
theorem keep1_v6 : after (ops1 (F := Ideal)) V (Proc.devRef .tc main_v6) = V (Proc.devRef .tc main_v6) := by
  dsimp only [ops1]
  after_results
theorem keep1_arg0 : after (ops1 (F := Ideal)) V (Proc.devRef .tc main_arg0) = V (Proc.devRef .tc main_arg0) := by
  dsimp only [ops1]
  after_results
theorem keep1_arg1 : after (ops1 (F := Ideal)) V (Proc.devRef .tc main_arg1) = V (Proc.devRef .tc main_arg1) := by
  dsimp only [ops1]
  after_results
theorem keep1_arg2 : after (ops1 (F := Ideal)) V (Proc.devRef .tc main_arg2) = V (Proc.devRef .tc main_arg2) := by
  dsimp only [ops1]
  after_results
theorem keep1_arg3 : after (ops1 (F := Ideal)) V (Proc.devRef .tc main_arg3) = V (Proc.devRef .tc main_arg3) := by
  dsimp only [ops1]
  after_results
theorem keep1_arg4 : after (ops1 (F := Ideal)) V (Proc.devRef .tc main_arg4) = V (Proc.devRef .tc main_arg4) := by
  dsimp only [ops1]
  after_results
theorem keep2_v3 : after (ops2 (F := Ideal)) V (Proc.devRef .tc main_v3) = V (Proc.devRef .tc main_v3) := by
  dsimp only [ops2]
  after_results
theorem keep2_v6 : after (ops2 (F := Ideal)) V (Proc.devRef .tc main_v6) = V (Proc.devRef .tc main_v6) := by
  dsimp only [ops2]
  after_results
theorem keep2_arg0 : after (ops2 (F := Ideal)) V (Proc.devRef .tc main_arg0) = V (Proc.devRef .tc main_arg0) := by
  dsimp only [ops2]
  after_results
theorem keep2_arg1 : after (ops2 (F := Ideal)) V (Proc.devRef .tc main_arg1) = V (Proc.devRef .tc main_arg1) := by
  dsimp only [ops2]
  after_results
theorem keep2_arg2 : after (ops2 (F := Ideal)) V (Proc.devRef .tc main_arg2) = V (Proc.devRef .tc main_arg2) := by
  dsimp only [ops2]
  after_results
theorem keep2_arg3 : after (ops2 (F := Ideal)) V (Proc.devRef .tc main_arg3) = V (Proc.devRef .tc main_arg3) := by
  dsimp only [ops2]
  after_results
theorem keep2_arg4 : after (ops2 (F := Ideal)) V (Proc.devRef .tc main_arg4) = V (Proc.devRef .tc main_arg4) := by
  dsimp only [ops2]
  after_results
theorem keep3_v29 : after (ops3 (F := Ideal)) V (Proc.devRef .tc main_v29) = V (Proc.devRef .tc main_v29) := by
  dsimp only [ops3]
  after_results
theorem keep3_v3 : after (ops3 (F := Ideal)) V (Proc.devRef .tc main_v3) = V (Proc.devRef .tc main_v3) := by
  dsimp only [ops3]
  after_results
theorem keep3_v6 : after (ops3 (F := Ideal)) V (Proc.devRef .tc main_v6) = V (Proc.devRef .tc main_v6) := by
  dsimp only [ops3]
  after_results
theorem keep3_arg2 : after (ops3 (F := Ideal)) V (Proc.devRef .tc main_arg2) = V (Proc.devRef .tc main_arg2) := by
  dsimp only [ops3]
  after_results
theorem keep3_arg3 : after (ops3 (F := Ideal)) V (Proc.devRef .tc main_arg3) = V (Proc.devRef .tc main_arg3) := by
  dsimp only [ops3]
  after_results
theorem keep3_arg4 : after (ops3 (F := Ideal)) V (Proc.devRef .tc main_arg4) = V (Proc.devRef .tc main_arg4) := by
  dsimp only [ops3]
  after_results
theorem keep4_v29 : after (ops4 (F := Ideal)) V (Proc.devRef .tc main_v29) = V (Proc.devRef .tc main_v29) := by
  dsimp only [ops4]
  after_results
theorem keep4_v3 : after (ops4 (F := Ideal)) V (Proc.devRef .tc main_v3) = V (Proc.devRef .tc main_v3) := by
  dsimp only [ops4]
  after_results
theorem keep4_v6 : after (ops4 (F := Ideal)) V (Proc.devRef .tc main_v6) = V (Proc.devRef .tc main_v6) := by
  dsimp only [ops4]
  after_results
theorem keep4_arg4 : after (ops4 (F := Ideal)) V (Proc.devRef .tc main_arg4) = V (Proc.devRef .tc main_arg4) := by
  dsimp only [ops4]
  after_results
theorem keep5_arg4 : after (ops5 (F := Ideal)) V (Proc.devRef .tc main_arg4) = V (Proc.devRef .tc main_arg4) := by
  dsimp only [ops5]
  after_results

theorem keep7_v64 : after (ops7 (F := Ideal)) V (Proc.devRef .tc main_v64) = V (Proc.devRef .tc main_v64) := by
  dsimp only [ops7]
  after_results

/-! ## The chain from the launch memory -/

section Chain

variable (m : (ℓ : Loc nD τ sig) → Buf (Elt Ideal) ℓ) (ρ : Dev nD → PrngReg) (c : Dev nD)

/-- The buffers' contents at launch and after each stretch. -/
abbrev U0 : Valuation τ sig (Elt Ideal) := launchContents m c
abbrev U1 : Valuation τ sig (Elt Ideal) := after (ops0 (F := Ideal)) (U0 m c)
abbrev U2 : Valuation τ sig (Elt Ideal) := after (ops1 (F := Ideal)) (U1 m c)
abbrev U3 : Valuation τ sig (Elt Ideal) := after (ops2 (F := Ideal)) (U2 m c)
abbrev U4 : Valuation τ sig (Elt Ideal) := after (ops3 (F := Ideal)) (U3 m c)
abbrev U5 : Valuation τ sig (Elt Ideal) := after (ops4 (F := Ideal)) (U4 m c)
abbrev U6 : Valuation τ sig (Elt Ideal) := after (ops5 (F := Ideal)) (U5 m c)
abbrev U7 : Valuation τ sig (Elt Ideal) := after (ops6 (F := Ideal)) (U6 m c)
abbrev U8 : Valuation τ sig (Elt Ideal) := after (ops7 (F := Ideal)) (U7 m c)
abbrev U9 : Valuation τ sig (Elt Ideal) := after (ops8 (F := Ideal)) (U8 m c)
abbrev U10 : Valuation τ sig (Elt Ideal) := after (ops9 (F := Ideal)) (U9 m c)

/-- After all the operations the buffers hold what the tenth stretch leaves. -/
theorem after_ops : after (Cert.ReferenceIdeal.ValueP.ops (F := Ideal)) (launchContents m c) = U10 m c := by
  rw [ops_split (F := Ideal), after_append, after_append, after_append, after_append, after_append, after_append, after_append,
    after_append, after_append]

theorem u1_v3 : U1 m c (Proc.devRef .tc main_v3) = val_main_v3 (F := Ideal) (m ((c.tc : Thread nD τ).loc main_arg5)) :=
  r0_v3 (U0 m c) _ rfl
theorem u1_v6 : U1 m c (Proc.devRef .tc main_v6) = val_main_v6 (F := Ideal) (m ((c.tc : Thread nD τ).loc main_arg5)) :=
  r0_v6 (U0 m c) _ rfl
theorem u1_v12 : U1 m c (Proc.devRef .tc main_v12) = val_main_v12 (F := Ideal) (m ((c.tc : Thread nD τ).loc main_arg5)) :=
  r0_v12 (U0 m c) _ rfl
theorem u1_v13 : U1 m c (Proc.devRef .tc main_v13) = val_main_v13 (F := Ideal) (m ((c.tc : Thread nD τ).loc main_arg5)) :=
  r0_v13 (U0 m c) _ rfl
theorem u1_cst2 : U1 m c (Proc.devRef .tc main_cst_2) = val_main_cst_2 (F := Ideal) :=
  r0_cst2 (U0 m c)
theorem u1_arg0 : U1 m c (Proc.devRef .tc main_arg0) = (m ((c.tc : Thread nD τ).loc main_arg0)) :=
  keep0_arg0 (U0 m c)
theorem u1_arg1 : U1 m c (Proc.devRef .tc main_arg1) = (m ((c.tc : Thread nD τ).loc main_arg1)) :=
  keep0_arg1 (U0 m c)
theorem u1_arg2 : U1 m c (Proc.devRef .tc main_arg2) = (m ((c.tc : Thread nD τ).loc main_arg2)) :=
  keep0_arg2 (U0 m c)
theorem u1_arg3 : U1 m c (Proc.devRef .tc main_arg3) = (m ((c.tc : Thread nD τ).loc main_arg3)) :=
  keep0_arg3 (U0 m c)
theorem u1_arg4 : U1 m c (Proc.devRef .tc main_arg4) = (m ((c.tc : Thread nD τ).loc main_arg4)) :=
  keep0_arg4 (U0 m c)
theorem u2_v14 : U2 m c (Proc.devRef .tc main_v14) = val_main_v14 (F := Ideal) (m ((c.tc : Thread nD τ).loc main_arg5)) :=
  r1_v14 (U1 m c) _ (u1_v12 m c) (u1_v13 m c) (u1_cst2 m c)
theorem u2_v3 : U2 m c (Proc.devRef .tc main_v3) = val_main_v3 (F := Ideal) (m ((c.tc : Thread nD τ).loc main_arg5)) :=
  (keep1_v3 (U1 m c)).trans (u1_v3 m c)
theorem u2_v6 : U2 m c (Proc.devRef .tc main_v6) = val_main_v6 (F := Ideal) (m ((c.tc : Thread nD τ).loc main_arg5)) :=
  (keep1_v6 (U1 m c)).trans (u1_v6 m c)
theorem u2_arg0 : U2 m c (Proc.devRef .tc main_arg0) = (m ((c.tc : Thread nD τ).loc main_arg0)) :=
  (keep1_arg0 (U1 m c)).trans (u1_arg0 m c)
theorem u2_arg1 : U2 m c (Proc.devRef .tc main_arg1) = (m ((c.tc : Thread nD τ).loc main_arg1)) :=
  (keep1_arg1 (U1 m c)).trans (u1_arg1 m c)
theorem u2_arg2 : U2 m c (Proc.devRef .tc main_arg2) = (m ((c.tc : Thread nD τ).loc main_arg2)) :=
  (keep1_arg2 (U1 m c)).trans (u1_arg2 m c)
theorem u2_arg3 : U2 m c (Proc.devRef .tc main_arg3) = (m ((c.tc : Thread nD τ).loc main_arg3)) :=
  (keep1_arg3 (U1 m c)).trans (u1_arg3 m c)
theorem u2_arg4 : U2 m c (Proc.devRef .tc main_arg4) = (m ((c.tc : Thread nD τ).loc main_arg4)) :=
  (keep1_arg4 (U1 m c)).trans (u1_arg4 m c)
theorem u3_v29 : U3 m c (Proc.devRef .tc main_v29) = val_main_v29 (F := Ideal) (m ((c.tc : Thread nD τ).loc main_arg5)) :=
  r2_v29 (U2 m c) _ (u2_v14 m c) (u2_v3 m c) (u2_v6 m c)
theorem u3_v3 : U3 m c (Proc.devRef .tc main_v3) = val_main_v3 (F := Ideal) (m ((c.tc : Thread nD τ).loc main_arg5)) :=
  (keep2_v3 (U2 m c)).trans (u2_v3 m c)
theorem u3_v6 : U3 m c (Proc.devRef .tc main_v6) = val_main_v6 (F := Ideal) (m ((c.tc : Thread nD τ).loc main_arg5)) :=
  (keep2_v6 (U2 m c)).trans (u2_v6 m c)
theorem u3_arg0 : U3 m c (Proc.devRef .tc main_arg0) = (m ((c.tc : Thread nD τ).loc main_arg0)) :=
  (keep2_arg0 (U2 m c)).trans (u2_arg0 m c)
theorem u3_arg1 : U3 m c (Proc.devRef .tc main_arg1) = (m ((c.tc : Thread nD τ).loc main_arg1)) :=
  (keep2_arg1 (U2 m c)).trans (u2_arg1 m c)
theorem u3_arg2 : U3 m c (Proc.devRef .tc main_arg2) = (m ((c.tc : Thread nD τ).loc main_arg2)) :=
  (keep2_arg2 (U2 m c)).trans (u2_arg2 m c)
theorem u3_arg3 : U3 m c (Proc.devRef .tc main_arg3) = (m ((c.tc : Thread nD τ).loc main_arg3)) :=
  (keep2_arg3 (U2 m c)).trans (u2_arg3 m c)
theorem u3_arg4 : U3 m c (Proc.devRef .tc main_arg4) = (m ((c.tc : Thread nD τ).loc main_arg4)) :=
  (keep2_arg4 (U2 m c)).trans (u2_arg4 m c)
theorem u4_v43 : U4 m c (Proc.devRef .tc main_v43) = val_main_v43 (F := Ideal) (m ((c.tc : Thread nD τ).loc main_arg0)) (m ((c.tc : Thread nD τ).loc main_arg1)) (m ((c.tc : Thread nD τ).loc main_arg5)) :=
  r3_v43 (U3 m c) _ _ _ (u3_arg0 m c) (u3_arg1 m c) (u3_v29 m c) (u3_v3 m c) (u3_v6 m c)
theorem u4_v29 : U4 m c (Proc.devRef .tc main_v29) = val_main_v29 (F := Ideal) (m ((c.tc : Thread nD τ).loc main_arg5)) :=
  (keep3_v29 (U3 m c)).trans (u3_v29 m c)
theorem u4_v3 : U4 m c (Proc.devRef .tc main_v3) = val_main_v3 (F := Ideal) (m ((c.tc : Thread nD τ).loc main_arg5)) :=
  (keep3_v3 (U3 m c)).trans (u3_v3 m c)
theorem u4_v6 : U4 m c (Proc.devRef .tc main_v6) = val_main_v6 (F := Ideal) (m ((c.tc : Thread nD τ).loc main_arg5)) :=
  (keep3_v6 (U3 m c)).trans (u3_v6 m c)
theorem u4_arg2 : U4 m c (Proc.devRef .tc main_arg2) = (m ((c.tc : Thread nD τ).loc main_arg2)) :=
  (keep3_arg2 (U3 m c)).trans (u3_arg2 m c)
theorem u4_arg3 : U4 m c (Proc.devRef .tc main_arg3) = (m ((c.tc : Thread nD τ).loc main_arg3)) :=
  (keep3_arg3 (U3 m c)).trans (u3_arg3 m c)
theorem u4_arg4 : U4 m c (Proc.devRef .tc main_arg4) = (m ((c.tc : Thread nD τ).loc main_arg4)) :=
  (keep3_arg4 (U3 m c)).trans (u3_arg4 m c)
theorem u5_v48 : U5 m c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) :=
  r4_v48 (U4 m c) _ _ _ _ _ (u4_v43 m c) (u4_arg2 m c) (u4_arg3 m c)
theorem u5_v29 : U5 m c (Proc.devRef .tc main_v29) = val_main_v29 (F := Ideal) (m ((c.tc : Thread nD τ).loc main_arg5)) :=
  (keep4_v29 (U4 m c)).trans (u4_v29 m c)
theorem u5_v3 : U5 m c (Proc.devRef .tc main_v3) = val_main_v3 (F := Ideal) (m ((c.tc : Thread nD τ).loc main_arg5)) :=
  (keep4_v3 (U4 m c)).trans (u4_v3 m c)
theorem u5_v6 : U5 m c (Proc.devRef .tc main_v6) = val_main_v6 (F := Ideal) (m ((c.tc : Thread nD τ).loc main_arg5)) :=
  (keep4_v6 (U4 m c)).trans (u4_v6 m c)
theorem u5_arg4 : U5 m c (Proc.devRef .tc main_arg4) = (m ((c.tc : Thread nD τ).loc main_arg4)) :=
  (keep4_arg4 (U4 m c)).trans (u4_arg4 m c)
theorem u6_v61 : U6 m c (Proc.devRef .tc main_v61) = val_main_v61 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg5)) :=
  r5_v61 (U5 m c) _ _ _ _ _ (u5_v48 m c) (u5_v29 m c) (u5_v3 m c) (u5_v6 m c)
theorem u6_arg4 : U6 m c (Proc.devRef .tc main_arg4) = (m ((c.tc : Thread nD τ).loc main_arg4)) :=
  (keep5_arg4 (U5 m c)).trans (u5_arg4 m c)
theorem u7_v64 : U7 m c (Proc.devRef .tc main_v64) = val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  r6_v64 (U6 m c) _ _ _ _ _ _ (u6_v61 m c) (u6_arg4 m c)
theorem u8_rowmax : U8 m c (Proc.devRef .tc main_call2_v2) = val_main_call2_v2 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  r7_rowmax (U7 m c) _ _ _ _ _ _ (u7_v64 m c)
theorem u8_v64 : U8 m c (Proc.devRef .tc main_v64) = val_main_v64 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  (keep7_v64 (U7 m c)).trans (u7_v64 m c)
theorem u9_shifted : U9 m c (Proc.devRef .tc main_call2_v5) = val_main_call2_v5 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  r8_shifted (U8 m c) _ _ _ _ _ _ (u8_v64 m c) (u8_rowmax m c)
theorem u10_v65 : U10 m c (Proc.devRef .tc main_v65) = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  r9_v65 (U9 m c) _ _ _ _ _ _ (u9_shifted m c)

end Chain

variable (m : (ℓ : Loc nD τ sig) → Buf (Elt Ideal) ℓ) (ρ : Dev nD → PrngReg)

set_option maxHeartbeats 40000000 in
/-- An argument buffer is written by no operation. -/
theorem arg_kept (c : Dev nD) (b : Ref sig .tc)
    (hb : b = main_arg0 ∨ b = main_arg1 ∨ b = main_arg2 ∨ b = main_arg3 ∨ b = main_arg4 ∨ b = main_arg5) :
    after (Cert.ReferenceIdeal.ValueP.ops (F := Ideal)) (launchContents m c) (Proc.devRef .tc b) = m ((c.tc : Thread nD τ).loc b) := by
  rcases hb with h | h | h | h | h | h <;> subst h <;> (after_results_simp <;> rfl)

/-- Every weakly fair execution of the reference terminates with its result at the last stage value of the arguments as
    launched, and the arguments unchanged. -/
theorem reference_value : θ_run defs (onTc (τ := τ) (main (F := Ideal))) ⟨m, fun _ => 0, ρ⟩ (fun r => ∀ c : Dev nD,
      r.2.mem ((c.tc : Thread nD τ).loc main_v65)
        = val_main_v65 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
      ⟨(h c main_v65).trans ((congrFun (after_ops m c) _).trans (u10_v65 m c)),
       (h c main_arg0).trans (arg_kept m c _ (.inl rfl)),
       (h c main_arg1).trans (arg_kept m c _ (.inr (.inl rfl))),
       (h c main_arg2).trans (arg_kept m c _ (.inr (.inr (.inl rfl)))),
       (h c main_arg3).trans (arg_kept m c _ (.inr (.inr (.inr (.inl rfl))))),
       (h c main_arg4).trans (arg_kept m c _ (.inr (.inr (.inr (.inr (.inl rfl)))))),
       (h c main_arg5).trans (arg_kept m c _ (.inr (.inr (.inr (.inr (.inr rfl))))))⟩)
    (run_seq Cert.ReferenceIdeal.ValueP.scopedRefs_eq Cert.ReferenceIdeal.ValueP.scopedSems_eq defs main
      (fun _ => Cert.ReferenceIdeal.ValueP.ops) Cert.ReferenceIdeal.ValueP.main_eq (fun _ => Cert.ReferenceIdeal.ValueP.ops_sub) m ρ)

end Cert.ReferenceIdeal.Stages

end
-- ==== Proof.lean ====
/-
  A two-layer graph convolution with a log-softmax head, as a kernel of three dense regions among host operations, against
  its plain reference: at the extended reals the two programs compute one function.

  Both programs build, from the edge list, the source and target lists with a self loop per node, the degree of each node by
  a scatter-add of ones, its inverse square root where it is positive, and the per-edge coefficient; and, per layer, gather
  the projected source rows, scale them by the coefficient and scatter-add them to the target rows. These host operations
  are the same in both programs, operation for operation, and are never opened: each side's buffer is shown to hold the same
  stage value of the arguments. What differs is the dense part. The kernel computes x·W1 block by block (20 blocks of 5000
  rows), each block one matrix product into a zero accumulator, where the reference has one product: entry by entry both
  are Σ_k x(n, k)·W1(k, h). The kernel fuses bias, rectifier and the second product per block of rows, and the reference
  applies them to whole arrays: both are Σ_k max(a(n, k) + b1(k), 0)·W2(k, o). The kernel's last region computes the
  log-softmax of a block of rows, z − max z − log Σ exp(z − max z) with z = a + b2, the maximum a fold from −∞; the reference's
  does the same on the whole array, with one more maximum against −∞, which is the identity since −∞ is the bottom. No
  finiteness of the inputs is used: every step is a re-indexing of the same sums, maxima and elementwise operations.

  The three frames are the generated frame certificates (the reference's from its run); the idealization rewrote nothing,
  so `preserves` is trivial.
-/
import proofs.«181830_j893353198188_1_alg».proof.Defs
import proofs.«181830_j893353198188_1_alg».proof.Proof.Gen.Kernel
import proofs.«181830_j893353198188_1_alg».proof.Proof.Gen.Kernel.Frame
import proofs.«181830_j893353198188_1_alg».proof.Proof.Gen.KernelIdeal
import proofs.«181830_j893353198188_1_alg».proof.Proof.Gen.KernelIdeal.Frame
import proofs.«181830_j893353198188_1_alg».proof.Proof.Gen.ReferenceIdeal
import proofs.«181830_j893353198188_1_alg».proof.Proof.Gen.Pre_finite_inputs
import proofs.«181830_j893353198188_1_alg».proof.Proof.KernelValue
import proofs.«181830_j893353198188_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Stages.reference_value m ρ)

theorem preserves : Cert.preserves_Kernel_KernelIdeal := trivial

/-- From memories that agree on the arguments both programs end with the last stage value of the same arguments. -/
theorem algebraic : Cert.algebraic_KernelIdeal_ReferenceIdeal := by
  intro m ρ m' ρ' _ hagree
  refine ⟨fun c => Cert.ReferenceIdeal.ReadP.val_main_v65 (F := Ideal) (Cert.KernelIdeal.Bridge.in0 m c)
      (Cert.KernelIdeal.Bridge.in1 m c) (Cert.KernelIdeal.Bridge.in2 m c) (Cert.KernelIdeal.Bridge.in3 m c)
      (Cert.KernelIdeal.Bridge.in4 m c) (Cert.KernelIdeal.Bridge.in5 m c),
    Cert.KernelIdeal.Bridge.kernel_value m ρ, ?_⟩
  refine (θ_run Cert.ReferenceIdeal.defs _ _).mono (fun _ h c => ⟨(h c).1.trans ?_, (h c).2⟩)
    (Cert.ReferenceIdeal.Stages.reference_value m' ρ')
  obtain ⟨e0, e1, e2, e3, e4, e5⟩ := hagree c
  exact congr (congr (congr (congr (congr (congrArg (Cert.ReferenceIdeal.ReadP.val_main_v65 (F := Ideal)) e0) e1) e2) e3) e4) e5

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
